-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v68)) (v1 : (c : Dev Cert.KernelIdeal.nD) → Buf (Elt Ideal) ((c.tc : Thread Cert.KernelIdeal.nD Cert.KernelIdeal.τ).loc Cert.KernelIdeal.main_v62)) (v2 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v68) = v0 c
          ∧ r.2.mem ((c.tc : Thread Cert.KernelIdeal.nD Cert.KernelIdeal.τ).loc Cert.KernelIdeal.main_v62) = v1 c
          ∧ r.2.mem ((c.tc : Thread Cert.KernelIdeal.nD Cert.KernelIdeal.τ).loc Cert.KernelIdeal.main_v66) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v99) = v1 c
          ∧ r.2.mem ((c.tc : Thread Cert.ReferenceIdeal.nD Cert.ReferenceIdeal.τ).loc Cert.ReferenceIdeal.main_v103) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_

variable [Facts]

def fn_part2 {F : FTy → Type} [FloatOps F] (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg5 : FVec F S128 .f32) (main_arg6 : FVec F S128x128 .f32) (main_arg7 : FVec F S128 .f32) (main_arg8 : FVec F S128x128 .f32) (main_arg9 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_v33

def fn {F : FTy → Type} [FloatOps F] (main_arg0 : FVec F S8192x512 .f32) (main_arg1 : IVec S2x262144 32) (main_arg2 : FVec F S512x256 .f32) (main_arg3 : FVec F S256 .f32) (main_arg4 : FVec F S256x128 .f32) (main_arg5 : FVec F S128 .f32) (main_arg6 : FVec F S128x128 .f32) (main_arg7 : FVec F S128 .f32) (main_arg8 : FVec F S128x128 .f32) (main_arg9 : FVec F S128 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_arg6 main_arg7 main_arg8 main_arg9 main_v13 main_v16
-- ==== Kernel.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S278528 : Shape := ⟨1, ![278528]⟩
abbrev S_ : Shape := ⟨0, ![]⟩
abbrev S278528x1 : Shape := ⟨2, ![278528, 1]⟩
abbrev S8192x256 : Shape := ⟨2, ![8192, 256]⟩
abbrev S8192x1 : Shape := ⟨2, ![8192, 1]⟩
abbrev S278528x256 : Shape := ⟨2, ![278528, 256]⟩
abbrev S1x256 : Shape := ⟨2, ![1, 256]⟩
abbrev S8192x128 : Shape := ⟨2, ![8192, 128]⟩
abbrev S278528x128 : Shape := ⟨2, ![278528, 128]⟩
abbrev S1x128 : Shape := ⟨2, ![1, 128]⟩
abbrev S8192x8192 : Shape := ⟨2, ![8192, 8192]⟩
abbrev S2048x128 : Shape := ⟨2, ![2048, 128]⟩
abbrev S1024x128 : Shape := ⟨2, ![1024, 128]⟩
abbrev S2048x1024 : Shape := ⟨2, ![2048, 1024]⟩
abbrev S128x1024 : Shape := ⟨2, ![128, 1024]⟩

abbrev nBuf : Space → Nat
  | .hbm => 94
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S2x262144, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S8192, .i32⟩
  | .hbm, ⟨11, _⟩ => ⟨S1x262144, .i32⟩
  | .hbm, ⟨12, _⟩ => ⟨S262144, .i32⟩
  | .hbm, ⟨13, _⟩ => ⟨S270336, .i32⟩
  | .hbm, ⟨14, _⟩ => ⟨S1x262144, .i32⟩
  | .hbm, ⟨15, _⟩ => ⟨S262144, .i32⟩
  | .hbm, ⟨16, _⟩ => ⟨S270336, .i32⟩
  | .hbm, ⟨17, _⟩ => ⟨S278528, .i32⟩
  | .hbm, ⟨18, _⟩ => ⟨S278528, .i32⟩
  | .hbm, ⟨19, _⟩ => ⟨S_, .f32⟩
  | .hbm, ⟨20, _⟩ => ⟨S278528, .f32⟩
  | .hbm, ⟨21, _⟩ => ⟨S_, .f32⟩
  | .hbm, ⟨22, _⟩ => ⟨S8192, .f32⟩
  | .hbm, ⟨23, _⟩ => ⟨S278528x1, .i32⟩
  | .hbm, ⟨24, _⟩ => ⟨S8192, .f32⟩
  | .hbm, ⟨25, _⟩ => ⟨S_, .f32⟩
  | .hbm, ⟨26, _⟩ => ⟨S8192, .f32⟩
  | .hbm, ⟨27, _⟩ => ⟨S8192, .i1⟩
  | .hbm, ⟨28, _⟩ => ⟨S_, .f32⟩
  | .hbm, ⟨29, _⟩ => ⟨S8192, .f32⟩
  | .hbm, ⟨30, _⟩ => ⟨S8192, .f32⟩
  | .hbm, ⟨31, _⟩ => ⟨S_, .f32⟩
  | .hbm, ⟨32, _⟩ => ⟨S_, .f32⟩
  | .hbm, ⟨33, _⟩ => ⟨S8192, .f32⟩
  | .hbm, ⟨34, _⟩ => ⟨S8192, .f32⟩
  | .hbm, ⟨35, _⟩ => ⟨S8192x256, .f32⟩
  | .hbm, ⟨36, _⟩ => ⟨S8192x1, .f32⟩
  | .hbm, ⟨37, _⟩ => ⟨S8192x256, .f32⟩
  | .hbm, ⟨38, _⟩ => ⟨S8192x256, .f32⟩
  | .hbm, ⟨39, _⟩ => ⟨S_, .i32⟩
  | .hbm, ⟨40, _⟩ => ⟨S278528, .i32⟩
  | .hbm, ⟨41, _⟩ => ⟨S278528, .i1⟩
  | .hbm, ⟨42, _⟩ => ⟨S_, .i32⟩
  | .hbm, ⟨43, _⟩ => ⟨S278528, .i32⟩
  | .hbm, ⟨44, _⟩ => ⟨S278528, .i32⟩
  | .hbm, ⟨45, _⟩ => ⟨S278528, .i32⟩
  | .hbm, ⟨46, _⟩ => ⟨S278528x1, .i32⟩
  | .hbm, ⟨47, _⟩ => ⟨S278528x256, .f32⟩
  | .hbm, ⟨48, _⟩ => ⟨S_, .f32⟩
  | .hbm, ⟨49, _⟩ => ⟨S8192x256, .f32⟩
  | .hbm, ⟨50, _⟩ => ⟨S278528x1, .i32⟩
  | .hbm, ⟨51, _⟩ => ⟨S8192x256, .f32⟩
  | .hbm, ⟨52, _⟩ => ⟨S8192x1, .f32⟩
  | .hbm, ⟨53, _⟩ => ⟨S8192x256, .f32⟩
  | .hbm, ⟨54, _⟩ => ⟨S8192x256, .f32⟩
  | .hbm, ⟨55, _⟩ => ⟨S1x256, .f32⟩
  | .hbm, ⟨56, _⟩ => ⟨S8192x256, .f32⟩
  | .hbm, ⟨57, _⟩ => ⟨S8192x256, .f32⟩
  | .hbm, ⟨58, _⟩ => ⟨S_, .f32⟩
  | .hbm, ⟨59, _⟩ => ⟨S8192x256, .f32⟩
  | .hbm, ⟨60, _⟩ => ⟨S8192x256, .f32⟩
  | .hbm, ⟨61, _⟩ => ⟨S8192x128, .f32⟩
  | .hbm, ⟨62, _⟩ => ⟨S8192x1, .f32⟩
  | .hbm, ⟨63, _⟩ => ⟨S8192x128, .f32⟩
  | .hbm, ⟨64, _⟩ => ⟨S8192x128, .f32⟩
  | .hbm, ⟨65, _⟩ => ⟨S_, .i32⟩
  | .hbm, ⟨66, _⟩ => ⟨S278528, .i32⟩
  | .hbm, ⟨67, _⟩ => ⟨S278528, .i1⟩
  | .hbm, ⟨68, _⟩ => ⟨S_, .i32⟩
  | .hbm, ⟨69, _⟩ => ⟨S278528, .i32⟩
  | .hbm, ⟨70, _⟩ => ⟨S278528, .i32⟩
  | .hbm, ⟨71, _⟩ => ⟨S278528, .i32⟩
  | .hbm, ⟨72, _⟩ => ⟨S278528x1, .i32⟩
  | .hbm, ⟨73, _⟩ => ⟨S278528x128, .f32⟩
  | .hbm, ⟨74, _⟩ => ⟨S_, .f32⟩
  | .hbm, ⟨75, _⟩ => ⟨S8192x128, .f32⟩
  | .hbm, ⟨76, _⟩ => ⟨S278528x1, .i32⟩
  | .hbm, ⟨77, _⟩ => ⟨S8192x128, .f32⟩
  | .hbm, ⟨78, _⟩ => ⟨S8192x1, .f32⟩
  | .hbm, ⟨79, _⟩ => ⟨S8192x128, .f32⟩
  | .hbm, ⟨80, _⟩ => ⟨S8192x128, .f32⟩
  | .hbm, ⟨81, _⟩ => ⟨S1x128, .f32⟩
  | .hbm, ⟨82, _⟩ => ⟨S8192x128, .f32⟩
  | .hbm, ⟨83, _⟩ => ⟨S8192x128, .f32⟩
  | .hbm, ⟨84, _⟩ => ⟨S8192x128, .f32⟩
  | .hbm, ⟨85, _⟩ => ⟨S1x128, .f32⟩
  | .hbm, ⟨86, _⟩ => ⟨S8192x128, .f32⟩
  | .hbm, ⟨87, _⟩ => ⟨S8192x128, .f32⟩
  | .hbm, ⟨88, _⟩ => ⟨S8192x128, .f32⟩
  | .hbm, ⟨89, _⟩ => ⟨S1x128, .f32⟩
  | .hbm, ⟨90, _⟩ => ⟨S8192x128, .f32⟩
  | .hbm, ⟨91, _⟩ => ⟨S8192x128, .f32⟩
  | .hbm, ⟨92, _⟩ => ⟨S8192x128, .bf16⟩
  | .hbm, ⟨93, _⟩ => ⟨S8192x8192, .f32⟩
  | .local _ .vmem, ⟨0, _⟩ => ⟨S2048x128, .bf16⟩
  | .local _ .vmem, ⟨1, _⟩ => ⟨S2048x128, .bf16⟩
  | .local _ .vmem, ⟨2, _⟩ => ⟨S1024x128, .bf16⟩
  | .local _ .vmem, ⟨3, _⟩ => ⟨S1024x128, .bf16⟩
  | .local _ .vmem, ⟨4, _⟩ => ⟨S2048x1024, .f32⟩
  | .local _ .vmem, ⟨5, _⟩ => ⟨S2048x1024, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_5 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_cst : Ref sig .tc := ⟨.hbm, 58, rfl⟩
abbrev main_call1_v0 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_c_6 : Ref sig .tc := ⟨.hbm, 65, rfl⟩
abbrev main_v43 : Ref sig .tc := ⟨.hbm, 66, rfl⟩
abbrev main_v44 : Ref sig .tc := ⟨.hbm, 67, rfl⟩
abbrev main_c_7 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_8 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  concatenates_S270336_S8192_S278528_d0 : Shape.Concatenates [S270336, S8192] S278528 0
  bcast_S_S278528 : S_.BroadcastsInDim S278528 (![] : Fin 0 → Fin S278528.rank)
  bcast_S_S8192 : S_.BroadcastsInDim S8192 (![] : Fin 0 → Fin S8192.rank)
  bcast_S278528_S278528x1_0 : S278528.BroadcastsInDim S278528x1 (![0] : Fin 1 → Fin S278528x1.rank)
  bcast_S8192_S8192x1_0 : S8192.BroadcastsInDim S8192x1 (![0] : Fin 1 → Fin S8192x1.rank)
  bcast_S8192x1_S8192x256_0_1 : S8192x1.BroadcastsInDim S8192x256 (![0, 1] : Fin 2 → Fin S8192x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S8192x1_S8192x128_0_1 : S8192x1.BroadcastsInDim S8192x128 (![0, 1] : Fin 2 → Fin S8192x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  bitsLt_bf16_f32 : FTy.bits .bf16 < FTy.bits .f32
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  transposes_S1024x128_p1_0_S128x1024 : S1024x128.Transposes [1, 0] S128x1024
  inb_S2048x1024_S2048x1024_0_0 : ∀ a, (![0, 0] : Fin 2 → Nat) a + S2048x1024.size a ≤ S2048x1024.size a
  h_S2048x1024 : 0 < S2048x1024.numel
  scatter_S8192_S278528x1_S278528_n_0_0_1_wf : ScatterDims.WF S8192 S278528x1 S278528 [] [0] [0] 1
  dot_S8192x512_S512x256_S8192x256_1_0_0_1_n_n_wf : DotDims.WF S8192x512 S512x256 S8192x256 [1] [0] [0] [1] [] []
  gather_S8192x256_S278528x1_S278528x256_1_0_n_n_0_1_1256_wf : GatherDims.WF S8192x256 S278528x1 S278528x256 [1] [0] [] [0] [] 1 ![1, 256]
  scatter_S8192x256_S278528x1_S278528x256_1_0_0_1_wf : ScatterDims.WF S8192x256 S278528x1 S278528x256 [1] [0] [0] 1
  dot_S8192x256_S256x128_S8192x128_1_0_0_1_n_n_wf : DotDims.WF S8192x256 S256x128 S8192x128 [1] [0] [0] [1] [] []
  gather_S8192x128_S278528x1_S278528x128_1_0_n_n_0_1_1128_wf : GatherDims.WF S8192x128 S278528x1 S278528x128 [1] [0] [] [0] [] 1 ![1, 128]
  scatter_S8192x128_S278528x1_S278528x128_1_0_0_1_wf : ScatterDims.WF S8192x128 S278528x1 S278528x128 [1] [0] [0] 1
  dot_S8192x128_S128x128_S8192x128_1_0_0_1_n_n_wf : DotDims.WF S8192x128 S128x128 S8192x128 [1] [0] [0] [1] [] []
  dot_S2048x128_S128x1024_S2048x1024_1_0_0_1_n_n_wf : DotDims.WF S2048x128 S128x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x128.size a ≤ S8192x128.size a
  hwx0_0 : ∀ i : grid0.Coords, EltTy.bits .bf16 = 32 ∨ (Rect.block (s := S8192x128) S2048x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x128.size a ≤ S8192x128.size a
  hwx0_1 : ∀ i : grid0.Coords, EltTy.bits .bf16 = 32 ∨ (Rect.block (s := S8192x128) S1024x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x8192.size a
  hwx0_2 : ∀ i : grid0.Coords, EltTy.bits .f32 = 32 ∨ (Rect.block (s := S8192x8192) S2048x1024.size (cc0_transform_2 i) (hinb0_2 i)).WholeWords (EltTy.packing .f32)

variable [Facts₀]

def scatter_S8192_S278528x1_S278528_n_0_0_1 : ScatterDims S8192 S278528x1 S278528 where
  updateWindowDims := []
  insertedWindowDims := [0]
  scatterDimsToOperandDims := [0]
  indexVectorDim := 1
  wf := scatter_S8192_S278528x1_S278528_n_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S278528x1_S278528x256_1_0_n_n_0_1_1256 : GatherDims S8192x256 S278528x1 S278528x256 where
  offsetDims := [1]
  collapsedSliceDims := [0]
  operandBatchingDims := []
  startIndicesBatchingDims := []
  startIndexMap := [0]
  indexVectorDim := 1
  sliceSizes := ![1, 256]
  wf := gather_S8192x256_S278528x1_S278528x256_1_0_n_n_0_1_1256_wf
def scatter_S8192x256_S278528x1_S278528x256_1_0_0_1 : ScatterDims S8192x256 S278528x1 S278528x256 where
  updateWindowDims := [1]
  insertedWindowDims := [0]
  scatterDimsToOperandDims := [0]
  indexVectorDim := 1
  wf := scatter_S8192x256_S278528x1_S278528x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S278528x1_S278528x128_1_0_n_n_0_1_1128 : GatherDims S8192x128 S278528x1 S278528x128 where
  offsetDims := [1]
  collapsedSliceDims := [0]
  operandBatchingDims := []
  startIndicesBatchingDims := []
  startIndexMap := [0]
  indexVectorDim := 1
  sliceSizes := ![1, 128]
  wf := gather_S8192x128_S278528x1_S278528x128_1_0_n_n_0_1_1128_wf
def scatter_S8192x128_S278528x1_S278528x128_1_0_0_1 : ScatterDims S8192x128 S278528x1 S278528x128 where
  updateWindowDims := [1]
  insertedWindowDims := [0]
  scatterDimsToOperandDims := [0]
  indexVectorDim := 1
  wf := scatter_S8192x128_S278528x1_S278528x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S2048x128_S128x1024_S2048x1024_1_0_0_1_n_n : DotDims S2048x128 S128x1024 S2048x1024 where
  lhsContracting := [1]
  rhsContracting := [0]
  lhsNonContracting := [0]
  rhsNonContracting := [1]
  lhsBatch := []
  rhsBatch := []
  wf := dot_S2048x128_S128x1024_S2048x1024_1_0_0_1_n_n_wf

abbrev win0_0 : Pipeline.Window sig grid0 :=
  Pipeline.Window.ofSpec (Memref.whole main_v67) S2048x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v67) S1024x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v68) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x512 : Shape := ⟨2, ![8192, 512]⟩
abbrev S2x262144 : Shape := ⟨2, ![2, 262144]⟩
abbrev S512x256 : Shape := ⟨2, ![512, 256]⟩
abbrev S256 : Shape := ⟨1, ![256]⟩
abbrev S256x128 : Shape := ⟨2, ![256, 128]⟩
abbrev S128 : Shape := ⟨1, ![128]⟩
abbrev S128x128 : Shape := ⟨2, ![128, 128]⟩
abbrev S8192 : Shape := ⟨1, ![8192]⟩
abbrev S1x262144 : Shape := ⟨2, ![1, 262144]⟩
abbrev S262144 : Shape := ⟨1, ![262144]⟩
abbrev S270336 : Shape := ⟨1, ![270336]⟩
abbrev S278528 : Shape := ⟨1, ![278528]⟩
abbrev S_ : Shape := ⟨0, ![]⟩
abbrev S278528x1 : Shape := ⟨2, ![278528, 1]⟩
abbrev S8192x256 : Shape := ⟨2, ![8192, 256]⟩
abbrev S278528x256 : Shape := ⟨2, ![278528, 256]⟩
abbrev S1x256 : Shape := ⟨2, ![1, 256]⟩
abbrev S8192x128 : Shape := ⟨2, ![8192, 128]⟩
abbrev S278528x128 : Shape := ⟨2, ![278528, 128]⟩
abbrev S1x128 : Shape := ⟨2, ![1, 128]⟩
abbrev S128x8192 : Shape := ⟨2, ![128, 8192]⟩
abbrev S8192x8192 : Shape := ⟨2, ![8192, 8192]⟩

abbrev nBuf : Space → Nat
  | .hbm => 154
  | .vmem => 0
  | .smem => 0
  | _ => 0

abbrev hbmTy0_0 (i : Nat) : BufTy := match i % 128 with
  | 0 => ⟨S8192x512, .f32⟩
  | 1 => ⟨S2x262144, .i32⟩
  | 2 => ⟨S512x256, .f32⟩
  | 3 => ⟨S256, .f32⟩
  | 4 => ⟨S256x128, .f32⟩
  | 5 => ⟨S128, .f32⟩
  | 6 => ⟨S128x128, .f32⟩
  | 7 => ⟨S128, .f32⟩
  | 8 => ⟨S128x128, .f32⟩
  | 9 => ⟨S128, .f32⟩
  | 10 => ⟨S8192, .i32⟩
  | 11 => ⟨S1x262144, .i32⟩
  | 12 => ⟨S262144, .i32⟩
  | 13 => ⟨S270336, .i32⟩
  | 14 => ⟨S1x262144, .i32⟩
  | 15 => ⟨S262144, .i32⟩
  | 16 => ⟨S270336, .i32⟩
  | 17 => ⟨S8192, .i32⟩
  | 18 => ⟨S278528, .i32⟩
  | 19 => ⟨S278528, .i32⟩
  | 20 => ⟨S_, .f32⟩
  | 21 => ⟨S278528, .f32⟩
  | 22 => ⟨S_, .f32⟩
  | 23 => ⟨S8192, .f32⟩
  | 24 => ⟨S278528x1, .i32⟩
  | 25 => ⟨S8192, .f32⟩
  | 26 => ⟨S_, .f32⟩
  | 27 => ⟨S8192, .f32⟩
  | 28 => ⟨S8192, .i1⟩
  | 29 => ⟨S_, .f32⟩
  | 30 => ⟨S8192, .f32⟩
  | 31 => ⟨S8192, .f32⟩
  | 32 => ⟨S_, .f32⟩
  | 33 => ⟨S_, .f32⟩
  | 34 => ⟨S8192, .f32⟩
  | 35 => ⟨S8192, .f32⟩
  | 36 => ⟨S_, .i32⟩
  | 37 => ⟨S278528, .i32⟩
  | 38 => ⟨S278528, .i1⟩
  | 39 => ⟨S_, .i32⟩
  | 40 => ⟨S278528, .i32⟩
  | 41 => ⟨S278528, .i32⟩
  | 42 => ⟨S278528, .i32⟩
  | 43 => ⟨S278528x1, .i32⟩
  | 44 => ⟨S278528, .f32⟩
  | 45 => ⟨S_, .i32⟩
  | 46 => ⟨S278528, .i32⟩
  | 47 => ⟨S278528, .i1⟩
  | 48 => ⟨S_, .i32⟩
  | 49 => ⟨S278528, .i32⟩
  | 50 => ⟨S278528, .i32⟩
  | 51 => ⟨S278528, .i32⟩
  | 52 => ⟨S278528x1, .i32⟩
  | 53 => ⟨S278528, .f32⟩
  | 54 => ⟨S278528, .f32⟩
  | 55 => ⟨S8192x256, .f32⟩
  | 56 => ⟨S_, .i32⟩
  | 57 => ⟨S278528, .i32⟩
  | 58 => ⟨S278528, .i1⟩
  | 59 => ⟨S_, .i32⟩
  | 60 => ⟨S278528, .i32⟩
  | 61 => ⟨S278528, .i32⟩
  | 62 => ⟨S278528, .i32⟩
  | 63 => ⟨S278528x1, .i32⟩
  | 64 => ⟨S278528x256, .f32⟩
  | 65 => ⟨S278528x1, .f32⟩
  | 66 => ⟨S278528x256, .f32⟩
  | 67 => ⟨S278528x256, .f32⟩
  | 68 => ⟨S_, .f32⟩
  | 69 => ⟨S8192x256, .f32⟩
  | 70 => ⟨S278528x1, .i32⟩
  | 71 => ⟨S8192x256, .f32⟩
  | 72 => ⟨S1x256, .f32⟩
  | 73 => ⟨S8192x256, .f32⟩
  | 74 => ⟨S8192x256, .f32⟩
  | 75 => ⟨S_, .f32⟩
  | 76 => ⟨S8192x256, .f32⟩
  | 77 => ⟨S8192x256, .f32⟩
  | 78 => ⟨S8192, .i32⟩
  | 79 => ⟨S278528, .i32⟩
  | 80 => ⟨S278528, .i32⟩
  | 81 => ⟨S_, .f32⟩
  | 82 => ⟨S278528, .f32⟩
  | 83 => ⟨S_, .f32⟩
  | 84 => ⟨S8192, .f32⟩
  | 85 => ⟨S278528x1, .i32⟩
  | 86 => ⟨S8192, .f32⟩
  | 87 => ⟨S_, .f32⟩
  | 88 => ⟨S8192, .f32⟩
  | 89 => ⟨S8192, .i1⟩
  | 90 => ⟨S_, .f32⟩
  | 91 => ⟨S8192, .f32⟩
  | 92 => ⟨S8192, .f32⟩
  | 93 => ⟨S_, .f32⟩
  | 94 => ⟨S_, .f32⟩
  | 95 => ⟨S8192, .f32⟩
  | 96 => ⟨S8192, .f32⟩
  | 97 => ⟨S_, .i32⟩
  | 98 => ⟨S278528, .i32⟩
  | 99 => ⟨S278528, .i1⟩
  | 100 => ⟨S_, .i32⟩
  | 101 => ⟨S278528, .i32⟩
  | 102 => ⟨S278528, .i32⟩
  | 103 => ⟨S278528, .i32⟩
  | 104 => ⟨S278528x1, .i32⟩
  | 105 => ⟨S278528, .f32⟩
  | 106 => ⟨S_, .i32⟩
  | 107 => ⟨S278528, .i32⟩
  | 108 => ⟨S278528, .i1⟩
  | 109 => ⟨S_, .i32⟩
  | 110 => ⟨S278528, .i32⟩
  | 111 => ⟨S278528, .i32⟩
  | 112 => ⟨S278528, .i32⟩
  | 113 => ⟨S278528x1, .i32⟩
  | 114 => ⟨S278528, .f32⟩
  | 115 => ⟨S278528, .f32⟩
  | 116 => ⟨S8192x128, .f32⟩
  | 117 => ⟨S_, .i32⟩
  | 118 => ⟨S278528, .i32⟩
  | 119 => ⟨S278528, .i1⟩
  | 120 => ⟨S_, .i32⟩
  | 121 => ⟨S278528, .i32⟩
  | 122 => ⟨S278528, .i32⟩
  | 123 => ⟨S278528, .i32⟩
  | 124 => ⟨S278528x1, .i32⟩
  | 125 => ⟨S278528x128, .f32⟩
  | 126 => ⟨S278528x1, .f32⟩
  | 127 => ⟨S278528x128, .f32⟩
  | _ => ⟨S8192x512, .f32⟩

abbrev hbmTy0_1 (i : Nat) : BufTy := match i % 128 with
  | 0 => ⟨S278528x128, .f32⟩
  | 1 => ⟨S_, .f32⟩
  | 2 => ⟨S8192x128, .f32⟩
  | 3 => ⟨S278528x1, .i32⟩
  | 4 => ⟨S8192x128, .f32⟩
  | 5 => ⟨S1x128, .f32⟩
  | 6 => ⟨S8192x128, .f32⟩
  | 7 => ⟨S8192x128, .f32⟩
  | 8 => ⟨S8192x128, .f32⟩
  | 9 => ⟨S1x128, .f32⟩
  | 10 => ⟨S8192x128, .f32⟩
  | 11 => ⟨S8192x128, .f32⟩
  | 12 => ⟨S8192x128, .f32⟩
  | 13 => ⟨S1x128, .f32⟩
  | 14 => ⟨S8192x128, .f32⟩
  | 15 => ⟨S8192x128, .f32⟩
  | 16 => ⟨S128x8192, .f32⟩
  | 17 => ⟨S8192x8192, .f32⟩
  | 18 => ⟨S8192x8192, .f32⟩
  | 19 => ⟨S8192x8192, .f32⟩
  | 20 => ⟨S_, .f32⟩
  | 21 => ⟨S8192x8192, .f32⟩
  | 22 => ⟨S8192x8192, .f32⟩
  | 23 => ⟨S_, .f32⟩
  | 24 => ⟨S8192x8192, .f32⟩
  | 25 => ⟨S8192x8192, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_c_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_c_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_c_7 : Ref sig .tc := ⟨.hbm, 56, rfl⟩
abbrev main_v35 : Ref sig .tc := ⟨.hbm, 57, rfl⟩
abbrev main_v36 : Ref sig .tc := ⟨.hbm, 58, rfl⟩
abbrev main_c_8 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_call1_cst : Ref sig .tc := ⟨.hbm, 75, rfl⟩
abbrev main_call1_v0 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_cst_10 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_v59 : Ref sig .tc := ⟨.hbm, 88, rfl⟩
abbrev main_v60 : Ref sig .tc := ⟨.hbm, 89, rfl⟩
abbrev main_cst_13 : Ref sig .tc := ⟨.hbm, 90, rfl⟩
abbrev main_v61 : Ref sig .tc := ⟨.hbm, 91, rfl⟩
abbrev main_v62 : Ref sig .tc := ⟨.hbm, 92, rfl⟩
abbrev main_cst_14 : Ref sig .tc := ⟨.hbm, 93, rfl⟩
abbrev main_call2_v0 : Ref sig .tc := ⟨.hbm, 94, rfl⟩
abbrev main_call2_v1 : Ref sig .tc := ⟨.hbm, 95, rfl⟩
abbrev main_v63 : Ref sig .tc := ⟨.hbm, 96, rfl⟩
abbrev main_c_15 : Ref sig .tc := ⟨.hbm, 97, rfl⟩
abbrev main_v64 : Ref sig .tc := ⟨.hbm, 98, rfl⟩
abbrev main_v65 : Ref sig .tc := ⟨.hbm, 99, rfl⟩
abbrev main_c_16 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_c_17 : Ref sig .tc := ⟨.hbm, 106, rfl⟩
abbrev main_v71 : Ref sig .tc := ⟨.hbm, 107, rfl⟩
abbrev main_v72 : Ref sig .tc := ⟨.hbm, 108, rfl⟩
abbrev main_c_18 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_19 : Ref sig .tc := ⟨.hbm, 117, rfl⟩
abbrev main_v80 : Ref sig .tc := ⟨.hbm, 118, rfl⟩
abbrev main_v81 : Ref sig .tc := ⟨.hbm, 119, rfl⟩
abbrev main_c_20 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_cst_21 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_cst_22 : Ref sig .tc := ⟨.hbm, 148, rfl⟩
abbrev main_v108 : Ref sig .tc := ⟨.hbm, 149, rfl⟩
abbrev main_v109 : Ref sig .tc := ⟨.hbm, 150, rfl⟩
abbrev main_cst_23 : Ref sig .tc := ⟨.hbm, 151, rfl⟩
abbrev main_v110 : Ref sig .tc := ⟨.hbm, 152, rfl⟩
abbrev main_v111 : Ref sig .tc := ⟨.hbm, 153, rfl⟩

abbrev nD : Nat := 1
abbrev τ : Topo := Topo.v7x

variable {F : FTy → Type} [FloatOps F]

class Facts₀ : Prop where
  slices_S2x262144_S1x262144_0_0 : S2x262144.Slices ![0, 0] S1x262144
  shapeCasts_S1x262144_S262144 : S1x262144.ShapeCasts S262144
  concatenates_S262144_S8192_S270336_d0 : Shape.Concatenates [S262144, S8192] S270336 0
  slices_S2x262144_S1x262144_1_0 : S2x262144.Slices ![1, 0] S1x262144
  concatenates_S270336_S8192_S278528_d0 : Shape.Concatenates [S270336, S8192] S278528 0
  bcast_S_S278528 : S_.BroadcastsInDim S278528 (![] : Fin 0 → Fin S278528.rank)
  bcast_S_S8192 : S_.BroadcastsInDim S8192 (![] : Fin 0 → Fin S8192.rank)
  bcast_S278528_S278528x1_0 : S278528.BroadcastsInDim S278528x1 (![0] : Fin 1 → Fin S278528x1.rank)
  bcast_S278528x1_S278528x256_0_1 : S278528x1.BroadcastsInDim S278528x256 (![0, 1] : Fin 2 → Fin S278528x256.rank)
  bcast_S_S8192x256 : S_.BroadcastsInDim S8192x256 (![] : Fin 0 → Fin S8192x256.rank)
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S278528x1_S278528x128_0_1 : S278528x1.BroadcastsInDim S278528x128 (![0, 1] : Fin 2 → Fin S278528x128.rank)
  bcast_S_S8192x128 : S_.BroadcastsInDim S8192x128 (![] : Fin 0 → Fin S8192x128.rank)
  bcast_S128_S1x128_1 : S128.BroadcastsInDim S1x128 (![1] : Fin 1 → Fin S1x128.rank)
  bcast_S1x128_S8192x128_0_1 : S1x128.BroadcastsInDim S8192x128 (![0, 1] : Fin 2 → Fin S8192x128.rank)
  transposes_S8192x128_S128x8192_1_0 : S8192x128.Transposes [1, 0] S128x8192
  bcast_S_S8192x8192 : S_.BroadcastsInDim S8192x8192 (![] : Fin 0 → Fin S8192x8192.rank)
  scatter_S8192_S278528x1_S278528_n_0_0_1_wf : ScatterDims.WF S8192 S278528x1 S278528 [] [0] [0] 1
  gather_S8192_S278528x1_S278528_n_0_n_n_0_1_1_wf : GatherDims.WF S8192 S278528x1 S278528 [] [0] [] [0] [] 1 ![1]
  dot_S8192x512_S512x256_S8192x256_1_0_0_1_n_n_wf : DotDims.WF S8192x512 S512x256 S8192x256 [1] [0] [0] [1] [] []
  gather_S8192x256_S278528x1_S278528x256_1_0_n_n_0_1_1256_wf : GatherDims.WF S8192x256 S278528x1 S278528x256 [1] [0] [] [0] [] 1 ![1, 256]
  scatter_S8192x256_S278528x1_S278528x256_1_0_0_1_wf : ScatterDims.WF S8192x256 S278528x1 S278528x256 [1] [0] [0] 1
  dot_S8192x256_S256x128_S8192x128_1_0_0_1_n_n_wf : DotDims.WF S8192x256 S256x128 S8192x128 [1] [0] [0] [1] [] []
  gather_S8192x128_S278528x1_S278528x128_1_0_n_n_0_1_1128_wf : GatherDims.WF S8192x128 S278528x1 S278528x128 [1] [0] [] [0] [] 1 ![1, 128]
  scatter_S8192x128_S278528x1_S278528x128_1_0_0_1_wf : ScatterDims.WF S8192x128 S278528x1 S278528x128 [1] [0] [0] 1
  dot_S8192x128_S128x128_S8192x128_1_0_0_1_n_n_wf : DotDims.WF S8192x128 S128x128 S8192x128 [1] [0] [0] [1] [] []
  dot_S8192x128_S128x8192_S8192x8192_1_0_0_1_n_n_wf : DotDims.WF S8192x128 S128x8192 S8192x8192 [1] [0] [0] [1] [] []

variable [Facts₀]

def scatter_S8192_S278528x1_S278528_n_0_0_1 : ScatterDims S8192 S278528x1 S278528 where
  updateWindowDims := []
  insertedWindowDims := [0]
  scatterDimsToOperandDims := [0]
  indexVectorDim := 1
  wf := scatter_S8192_S278528x1_S278528_n_0_0_1_wf
def gather_S8192_S278528x1_S278528_n_0_n_n_0_1_1 : GatherDims S8192 S278528x1 S278528 where
  offsetDims := []
  collapsedSliceDims := [0]
  operandBatchingDims := []
  startIndicesBatchingDims := []
  startIndexMap := [0]
  indexVectorDim := 1
  sliceSizes := ![1]
  wf := gather_S8192_S278528x1_S278528_n_0_n_n_0_1_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf
def gather_S8192x256_S278528x1_S278528x256_1_0_n_n_0_1_1256 : GatherDims S8192x256 S278528x1 S278528x256 where
  offsetDims := [1]
  collapsedSliceDims := [0]
  operandBatchingDims := []
  startIndicesBatchingDims := []
  startIndexMap := [0]
  indexVectorDim := 1
  sliceSizes := ![1, 256]
  wf := gather_S8192x256_S278528x1_S278528x256_1_0_n_n_0_1_1256_wf
def scatter_S8192x256_S278528x1_S278528x256_1_0_0_1 : ScatterDims S8192x256 S278528x1 S278528x256 where
  updateWindowDims := [1]
  insertedWindowDims := [0]
  scatterDimsToOperandDims := [0]
  indexVectorDim := 1
  wf := scatter_S8192x256_S278528x1_S278528x256_1_0_0_1_wf
def dot_S8192x256_S256x128_S8192x128_1_0_0_1_n_n : DotDims S8192x256 S256x128 S8192x128 where
  lhsContracting := [1]
  rhsContracting := [0]
  lhsNonContracting := [0]
  rhsNonContracting := [1]
  lhsBatch := []
  rhsBatch := []
  wf := dot_S8192x256_S256x128_S8192x128_1_0_0_1_n_n_wf
def gather_S8192x128_S278528x1_S278528x128_1_0_n_n_0_1_1128 : GatherDims S8192x128 S278528x1 S278528x128 where
  offsetDims := [1]
  collapsedSliceDims := [0]
  operandBatchingDims := []
  startIndicesBatchingDims := []
  startIndexMap := [0]
  indexVectorDim := 1
  sliceSizes := ![1, 128]
  wf := gather_S8192x128_S278528x1_S278528x128_1_0_n_n_0_1_1128_wf
def scatter_S8192x128_S278528x1_S278528x128_1_0_0_1 : ScatterDims S8192x128 S278528x1 S278528x128 where
  updateWindowDims := [1]
  insertedWindowDims := [0]
  scatterDimsToOperandDims := [0]
  indexVectorDim := 1
  wf := scatter_S8192x128_S278528x1_S278528x128_1_0_0_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.LibSharedLaunch.lean ====
/-
  A pipeline whose windows SHARE ARRAYS (one array handed to the kernel through several input windows,
  as when an attention kernel reads the same tensor as its queries and as its keys/values).

  The library's frame runs ask that the windows' arrays be pairwise distinct.  Here the arrays need not be:
  what the launch needs instead is how the distinct buffers behind the arrays, each whole at the full share,
  make the proof data's per-window holdings (`hsplit`: a buffer read by two windows is split into two
  half shares).  The kernel keeps the invariant "the scoped buffers that are no staging buffer, at some
  contents" (it draws no random bits and has no semaphore of its own).  The conclusion is the library's
  `FramePost`: every window's array ends at what the write-backs computed from the proof data leave, every
  other unscoped buffer at its contents when the region was entered.
-/
import Idealize.ShloMosaic.Lib.Pipeline.Frame

noncomputable section

namespace Cert.Lib.SharedLaunch

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

variable (cfgs : P → Cfg sig Λ₀) (dats : (p : P) → (c : Dev nD) → Dat τ Val Unit ℕ (UR sig nD τ) ℕ (cfgs p) c) (p : P)
  (defs₀ : Defs nD τ sig Val Λ₀) (𝒱₀ : Variants)

/-- The frame run of a kernel whose input windows may share arrays, its invariant before the first point and
    after the last the scoped rest (`hin`, `hout`), the arrays' buffers split among the windows by `hsplit`. -/
theorem θ_run_frame_shared
    (hinj : Function.Injective (cellOf (nD := nD) (τ := τ) cfgs)) (hw : WinFacts₀ (cfgs p).spec)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (hne : ∀ w : Fin (cfgs p).W, 0 < ((cfgs p).spec w).block.numel)
    (harr : ∀ w, ((cfgs p).spec w).arr.IsWhole) (hstage : ∀ w s, (((cfgs p).spec w).stage s).IsWhole)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (cfgs p).spec c (V c) : sProp 𝕄) ⊢ (dats p c).arrays ((dats p c).arrAt · 0))
    (hin : ∀ c, (scopedRest (cfgs p).spec c : sProp 𝕄) ⊢ (dats p c).Φ 0)
    (hout : ∀ c, (dats p c).Φ (Fin.last (cfgs p).N) ⊢ (scopedRest (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp)) (fun c => unscopedRest (Ix := Unit) (Name := ℕ) (U := UR sig nD τ) (Lvl := ℕ) (cfgs p).spec c (V c))
    (fun c => by
      iintro H
      isplitr
      · iempintro
      · iexact H)
    (fun c => (show iprop(iprop(emp) ∗ scopedRest (cfgs p).spec c) ⊢ (scopedRest (cfgs p).spec c : sProp 𝕄) from by
      iintro ⟨-, H⟩; iexact H).trans (hin c))
    (fun c => (hout c).trans (by
      iintro H
      isplitr
      · iempintro
      · iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Cert.Lib.SharedLaunch

end
-- ==== Proof.FrameKernel.lean ====
/-
  The frame of `Kernel`: @main runs eighty-three host operations and then one pipelined region over a grid of
  4 × 8 points.  The region reads ONE array through two input windows — rows `2048·i … 2048·i + 2047` of the
  8192 × 128 array as window 0's block at point `(i, j)`, rows `1024·j … 1024·j + 1023` of the same array as window
  1's block — and writes the 2048 × 1024 block `(i, j)` of its output through window 2.  The body loads the two input
  blocks whole and stores, over the whole output block, the logistic of the first block times the transpose of the second.

  Because the two input windows name one buffer, the pipeline cannot hold that buffer whole for each of them: each
  window holds it at HALF the full share (the left and the right half, which compose to the full share), which is
  enough to read it; the output's buffer is held whole at the full share.

  Here: the buffers as the region finds them (`V`, the fold of the host operations over the launch memory), @main up to
  the region (`hmain`), that no host operation writes an argument (`V_main_argK`), each window's block at a point
  (`iblk`), what the body leaves in the output's staging buffer (`out0_2`), the body's triple (`sound_kernel`), the
  pipeline's proof data (`dats`), the body obligation, the run (`run_main`) and the frame (`frame`), at any `F`.
-/
import proofs.«174791_j9740985827608_2_alg».proof.Proof.Gen.Kernel.Launch
import proofs.«174791_j9740985827608_2_alg».proof.Proof.Gen.Kernel.Skeleton
import proofs.«174791_j9740985827608_2_alg».proof.Proof.Gen.Kernel.Points
import proofs.«174791_j9740985827608_2_alg».proof.Proof.LibSharedLaunch
import Idealize.ShloMosaic.Lib.Pipeline.FrameBody
import Idealize.ShloMosaic.Lib.Ring
import Idealize.ShloMosaic.Lib.Tactic

-- membership in a rectangle of production extents: the elaborator's structural look recurses once per coordinate
-- of the long axes
set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch memory after the five stretches of host
    operations, in order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates a buffer of unknown contents. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main up to the region, at any variants: the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved since the last fetch), for any proof data whose array is `V`'s and whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each staging buffer whole -/

abbrev r0_0 : Rect S2048x128 := Rect.unit (s := S2048x128) ![0, 0] S2048x128.size inb_S2048x128_S2048x128_0_0
abbrev r0_1 : Rect S1024x128 := Rect.unit (s := S1024x128) ![0, 0] S1024x128.size inb_S1024x128_S1024x128_0_0
abbrev r0_2 : Rect S2048x1024 := Rect.unit (s := S2048x1024) ![0, 0] S2048x1024.size inb_S2048x1024_S2048x1024_0_0

/-! ## What the body leaves in the output window's buffer -/

/-- Window 2's staging buffer after the body, from the input windows' blocks: its one store, over the whole buffer,
    of the payload computed from the two loaded blocks. -/
def out0_2 (x0 : Vec F S2048x128 .bf16) (x1 : Vec F S1024x128 .bf16) : Vec F S2048x1024 .f32 :=
  View.canon [⟨r0_2, k0_pay1 (View.ld x0 r0_0) (View.ld x1 r0_1)⟩]

/-- The one store's rectangle is the whole buffer, so it covers it. -/
theorem cover0_2 (p0 : Vec F S2048x1024 .f32) (y : S2048x1024.Idx) :
    ∃ pc ∈ ([⟨r0_2, p0⟩] : List (View.Piece (Elt F) S2048x1024 .f32)), y ∈ pc.1.set :=
  View.cover_of_tiled [⟨r0_2, p0⟩] S2048x1024.size (by rfl) y
/-! ## The body's triple -/

set_option maxHeartbeats 1000000 in
/-- The kernel body on whole staging memrefs, the inputs' at read contents `x0`, `x1` and the output's at anything, runs
    to the continuation holding the inputs' as they were and the output's at `out0_2 x0 x1`: the printed function is its
    skeleton — two loads of the inputs' buffers whole, a load of the output's buffer that nothing reads, and one store
    over the whole of the output's buffer. -/
theorem sound_kernel (c : Dev nD) (E : Set ℕ) (i : grid0.Coords) (arg2 : Memref sig .tc .vmem S2048x128 .bf16) (harg2 : arg2.IsWhole) (arg3 : Memref sig .tc .vmem S1024x128 .bf16) (harg3 : arg3.IsWhole) (arg4 : Memref sig .tc .vmem S2048x1024 .f32) (harg4 : arg4.IsWhole)
    (x0 : Vec F S2048x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and the output's at `out0_2` of the input blocks; the invariant the
    core's scoped buffers that are no staging buffer (there is none); nothing owed.  The two input windows read ONE
    array: each holds it at half the full share — window 0 the left half, window 1 the right half, which compose to the
    full share —, the output's array is held at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

/-- The proof data's arrays are the region-entry contents: the definition projected, so that `V` — a fold over
    eighty-three host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- The shares the windows hold their arrays at. -/
theorem q0_0 (c : Dev nD) : (dats m 0 c).q 0 = fullShare.left := by dsimp only [dats]
theorem q0_1 (c : Dev nD) : (dats m 0 c).q 1 = fullShare.right := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_W`), so `sound_kernel` applies; the
    invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t
/-! ## The arrays' buffers, split among the windows -/

/-- The distinct buffers behind the windows' arrays are two: the one both input windows read, and the output's. -/
theorem arrBufs0_eq (c : Dev nD) : (Pipeline.arrBufs (cfgs 0).spec c (V m c) : sProp 𝕄)
    = iprop((((c.tc : Thread nD τ).loc main_v67) ↦{fullShare} V m c main_v67) ∗ (((c.tc : Thread nD τ).loc main_v68) ↦{fullShare} V m c main_v68)) := by
  unfold Pipeline.arrBufs
  exact bigSep_eq_bigSepL_of_eq [main_v67, main_v68] (by decide) (by decide) _

/-- The shares the core holds the arrays at: the inputs' their own, the output's the full share. -/
theorem share0_0 (c : Dev nD) : (dats m 0 c).share 0 = fullShare.left := by
  unfold Dat.share; rw [if_neg (by decide)]; dsimp only [dats]
theorem share0_1 (c : Dev nD) : (dats m 0 c).share 1 = fullShare.right := by
  unfold Dat.share; rw [if_neg (by decide)]; dsimp only [dats]
theorem share0_2 (c : Dev nD) : (dats m 0 c).share 2 = fullShare := by
  unfold Dat.share; rw [if_pos (by decide)]

/-- The two buffers, each whole at the full share, make the windows' holdings: the full share of the inputs' buffer
    is its left half and its right half, one for each input window; the output's buffer goes to the output window whole. -/
theorem hsplit (c : Dev nD) :
    (Pipeline.arrBufs (cfgs 0).spec c (V m c) : sProp 𝕄) ⊢ (dats m 0 c).arrays ((dats m 0 c).arrAt · 0) := by
  rw [arrBufs0_eq]
  unfold Dat.arrays
  rw [bigSep_W0, (arr_whole0 0).set_eq_univ,
    (arr_whole0 2).set_eq_univ, share0_0, share0_1, share0_2]
  iintro ⟨H67, H68⟩
  ihave H := (pointsTo_share (PosShare.mem_left_op_right fullShare)).1 $$ H67
  icases H with ⟨Hl, Hr⟩
  isplitl [Hl]; · iexact Hl
  isplitl [Hr]; · iexact Hr
  iexact H68

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the write-backs computed from the
    proof data leave and every other unscoped buffer as the region found it. -/
theorem run_main : θ_run defs (onTc (τ := τ) (main (F := F))) (s₀ m ρ) (Pipeline.FramePost cfgs (dats m) 0 (V m)) :=
  Cert.Lib.SharedLaunch.θ_run_frame_shared cfgs (dats m) (0 : Fin 1) defs₀ Variants.none
    (hinj := cellOf_inj) (hw := winFacts₀0) m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- info: 'Cert.Kernel.Hand.run_main' depends on axioms: [propext, Classical.choice, Quot.sound] -/
#guard_msgs in #print axioms run_main

/-- THE FRAME: no argument of @main is an array of a window, so each ends at what the region found it holding, which is
    what it was launched with (no host operation writes an argument). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.Kernel.Hand

end
-- ==== Proof.FrameKernelIdeal.lean ====
/-
  The frame of `KernelIdeal`: @main runs eighty-three host operations and then one pipelined region over a grid of
  4 × 8 points.  The region reads ONE array through two input windows — rows `2048·i … 2048·i + 2047` of the
  8192 × 128 array as window 0's block at point `(i, j)`, rows `1024·j … 1024·j + 1023` of the same array as window
  1's block — and writes the 2048 × 1024 block `(i, j)` of its output through window 2.  The body loads the two input
  blocks whole and stores, over the whole output block, the logistic of the first block times the transpose of the second.

  Because the two input windows name one buffer, the pipeline cannot hold that buffer whole for each of them: each
  window holds it at HALF the full share (the left and the right half, which compose to the full share), which is
  enough to read it; the output's buffer is held whole at the full share.

  Here: the buffers as the region finds them (`V`, the fold of the host operations over the launch memory), @main up to
  the region (`hmain`), that no host operation writes an argument (`V_main_argK`), each window's block at a point
  (`iblk`), what the body leaves in the output's staging buffer (`out0_2`), the body's triple (`sound_kernel`), the
  pipeline's proof data (`dats`), the body obligation, the run (`run_main`) and the frame (`frame`), at any `F`.
-/
import proofs.«174791_j9740985827608_2_alg».proof.Proof.Gen.KernelIdeal.Launch
import proofs.«174791_j9740985827608_2_alg».proof.Proof.Gen.KernelIdeal.Skeleton
import proofs.«174791_j9740985827608_2_alg».proof.Proof.Gen.KernelIdeal.Points
import proofs.«174791_j9740985827608_2_alg».proof.Proof.LibSharedLaunch
import Idealize.ShloMosaic.Lib.Pipeline.FrameBody
import Idealize.ShloMosaic.Lib.Ring
import Idealize.ShloMosaic.Lib.Tactic

-- membership in a rectangle of production extents: the elaborator's structural look recurses once per coordinate
-- of the long axes
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: the launch memory after the five stretches of host
    operations, in order. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

/-- No host operation allocates a buffer of unknown contents. -/
theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor

/-- @main up to the region, at any variants: the five stretches of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; exact ⟨hostOps0_fresh, hostOps0_1_fresh, hostOps0_2_fresh, hostOps0_3_fresh, hostOps0_4_fresh⟩) main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg9`: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not (unfetched, the
    block index has not moved since the last fetch), for any proof data whose array is `V`'s and whose body leaves
    the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, likewise. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each staging buffer whole -/

abbrev r0_0 : Rect S2048x128 := Rect.unit (s := S2048x128) ![0, 0] S2048x128.size inb_S2048x128_S2048x128_0_0
abbrev r0_1 : Rect S1024x128 := Rect.unit (s := S1024x128) ![0, 0] S1024x128.size inb_S1024x128_S1024x128_0_0
abbrev r0_2 : Rect S2048x1024 := Rect.unit (s := S2048x1024) ![0, 0] S2048x1024.size inb_S2048x1024_S2048x1024_0_0

/-! ## What the body leaves in the output window's buffer -/

/-- Window 2's staging buffer after the body, from the input windows' blocks: its one store, over the whole buffer,
    of the payload computed from the two loaded blocks. -/
def out0_2 (x0 : Vec F S2048x128 .bf16) (x1 : Vec F S1024x128 .bf16) : Vec F S2048x1024 .f32 :=
  View.canon [⟨r0_2, k0_pay1 (View.ld x0 r0_0) (View.ld x1 r0_1)⟩]

/-- The one store's rectangle is the whole buffer, so it covers it. -/
theorem cover0_2 (p0 : Vec F S2048x1024 .f32) (y : S2048x1024.Idx) :
    ∃ pc ∈ ([⟨r0_2, p0⟩] : List (View.Piece (Elt F) S2048x1024 .f32)), y ∈ pc.1.set :=
  View.cover_of_tiled [⟨r0_2, p0⟩] S2048x1024.size (by rfl) y
/-! ## The body's triple -/

set_option maxHeartbeats 1000000 in
/-- The kernel body on whole staging memrefs, the inputs' at read contents `x0`, `x1` and the output's at anything, runs
    to the continuation holding the inputs' as they were and the output's at `out0_2 x0 x1`: the printed function is its
    skeleton — two loads of the inputs' buffers whole, a load of the output's buffer that nothing reads, and one store
    over the whole of the output's buffer. -/
theorem sound_kernel (c : Dev nD) (E : Set ℕ) (i : grid0.Coords) (arg2 : Memref sig .tc .vmem S2048x128 .bf16) (harg2 : arg2.IsWhole) (arg3 : Memref sig .tc .vmem S1024x128 .bf16) (harg3 : arg3.IsWhole) (arg4 : Memref sig .tc .vmem S2048x1024 .f32) (harg4 : arg4.IsWhole)
    (x0 : Vec F S2048x128 .bf16) (x1 : Vec F S1024x128 .bf16) (K : PUnit → sProp 𝕄) :
    iprop(owns (c : Thread nD τ) arg2 fullShare x0 ∗ owns (c : Thread nD τ) arg3 fullShare x1 ∗ (∃ d, owns (c : Thread nD τ) arg4 fullShare d)
        ∗ (iprop(owns (c : Thread nD τ) arg2 fullShare x0 ∗ owns (c : Thread nD τ) arg3 fullShare x1 ∗ owns (c : Thread nD τ) arg4 fullShare (out0_2 x0 x1)) -∗ K ⟨⟩))
      ⊢ wp frame (wpE (defs₀ (F := F)) Variants.none c none) E (cc0__decode_kernel i arg2 harg2 arg3 harg3 arg4 harg4) K := by
  simp only [cc0__decode_kernel_eq_skeleton]; unfold cc0__decode_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the one pipeline on core `c`: the arrays as the region finds them (`V`); after the body at
    point `t` each input's buffer at its block and the output's at `out0_2` of the input blocks; the invariant the
    core's scoped buffers that are no staging buffer (there is none); nothing owed.  The two input windows read ONE
    array: each holds it at half the full share — window 0 the left half, window 1 the right half, which compose to the
    full share —, the output's array is held at the full share. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out0_2 (iblk m c 0 t) (iblk m c 1 t)
  Φ _ := Pipeline.scopedRest spec0 c
  q w := match w with
    | ⟨0, _⟩ => fullShare.left
    | ⟨1, _⟩ => fullShare.right
    | ⟨2, _⟩ => fullShare
  owed _ := 0

/-- The proof data's arrays are the region-entry contents: the definition projected, so that `V` — a fold over
    eighty-three host operations — is never unfolded to check it. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = out0_2 (iblk m c 0 t) (iblk m c 1 t) := by dsimp only [dats]

/-- The shares the windows hold their arrays at. -/
theorem q0_0 (c : Dev nD) : (dats m 0 c).q 0 = fullShare.left := by dsimp only [dats]
theorem q0_1 (c : Dev nD) : (dats m 0 c).q 1 = fullShare.right := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- The body at any point: the inputs' memrefs hold their blocks (`before0_W`), so `sound_kernel` applies; the
    invariant and the core's debts pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation (c : Dev nD) : BodyObligation (dats (F := F) m 0 c) (defs₀ (F := F)) Variants.none () Set.univ := fun t => by
  rw [bigSep_W0, bigSep_W0]
  exact sound_body m c t
/-! ## The arrays' buffers, split among the windows -/

/-- The distinct buffers behind the windows' arrays are two: the one both input windows read, and the output's. -/
theorem arrBufs0_eq (c : Dev nD) : (Pipeline.arrBufs (cfgs 0).spec c (V m c) : sProp 𝕄)
    = iprop((((c.tc : Thread nD τ).loc main_v67) ↦{fullShare} V m c main_v67) ∗ (((c.tc : Thread nD τ).loc main_v68) ↦{fullShare} V m c main_v68)) := by
  unfold Pipeline.arrBufs
  exact bigSep_eq_bigSepL_of_eq [main_v67, main_v68] (by decide) (by decide) _

/-- The shares the core holds the arrays at: the inputs' their own, the output's the full share. -/
theorem share0_0 (c : Dev nD) : (dats m 0 c).share 0 = fullShare.left := by
  unfold Dat.share; rw [if_neg (by decide)]; dsimp only [dats]
theorem share0_1 (c : Dev nD) : (dats m 0 c).share 1 = fullShare.right := by
  unfold Dat.share; rw [if_neg (by decide)]; dsimp only [dats]
theorem share0_2 (c : Dev nD) : (dats m 0 c).share 2 = fullShare := by
  unfold Dat.share; rw [if_pos (by decide)]

/-- The two buffers, each whole at the full share, make the windows' holdings: the full share of the inputs' buffer
    is its left half and its right half, one for each input window; the output's buffer goes to the output window whole. -/
theorem hsplit (c : Dev nD) :
    (Pipeline.arrBufs (cfgs 0).spec c (V m c) : sProp 𝕄) ⊢ (dats m 0 c).arrays ((dats m 0 c).arrAt · 0) := by
  rw [arrBufs0_eq]
  unfold Dat.arrays
  rw [bigSep_W0, (arr_whole0 0).set_eq_univ,
    (arr_whole0 2).set_eq_univ, share0_0, share0_1, share0_2]
  iintro ⟨H67, H68⟩
  ihave H := (pointsTo_share (PosShare.mem_left_op_right fullShare)).1 $$ H67
  icases H with ⟨Hl, Hr⟩
  isplitl [Hl]; · iexact Hl
  isplitl [Hr]; · iexact Hr
  iexact H68

/-! ## The run and the frame -/

-- the launch theorem's implicit arguments are found by unifying its conclusion with this one, which takes unfolding plain
-- definitions in a metavariable's type
set_option backward.isDefEq.respectTransparency.types false in
/-- At the compiled mesh, for any values, from any memory with zero counters: every weakly fair execution of @main on the
    TensorCores terminates, and every final state has every array of the pipeline at what the write-backs computed from the
    proof data leave and every other unscoped buffer as the region found it. -/
theorem run_main : θ_run defs (onTc (τ := τ) (main (F := F))) (s₀ m ρ) (Pipeline.FramePost cfgs (dats m) 0 (V m)) :=
  Cert.Lib.SharedLaunch.θ_run_frame_shared cfgs (dats m) (0 : Fin 1) defs₀ Variants.none
    (hinj := cellOf_inj) (hw := winFacts₀0) m ρ main
    (hbody := fun c => (body_obligation m c).loose) (hne := block_pos0) (harr := arr_whole0) (hstage := stage_whole0)
    (howed := fun _ _ => rfl) (V := V m) (hmain := hmain m Variants.none) (hsplit := hsplit m)
    (hin := fun _ => .rfl) (hout := fun _ => .rfl)

/-- info: 'Cert.KernelIdeal.Hand.run_main' depends on axioms: [propext, Classical.choice, Quot.sound] -/
#guard_msgs in #print axioms run_main

/-- THE FRAME: no argument of @main is an array of a window, so each ends at what the region found it holding, which is
    what it was launched with (no host operation writes an argument). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

end Cert.KernelIdeal.Hand

end
-- ==== Proof.AdjSpec.lean ====
/-
  The decoder's result: `adj = sigmoid (mu · muᵀ)` for `mu : [8192, 128]`, entry by entry on the extended reals —
  `adj (I, J) = 1 / (1 + exp (−Σ_k mu (I, k) · mu (J, k)))`, with `1 / (1 + exp (−x))` read at the infinities as the
  limits `0` and `1` (the one function `Ideal.logistic`).
-/
import Idealize.ShloMosaic.Lib.ValueIdx
import Idealize.ShloMosaic.PureOps.Ideal

noncomputable section

namespace Cert.Adj

open Idealize.ShloMosaic Idealize.ShloMosaic.ValueIdx

/-- Entry `(I, J)` of `sigmoid (mu · muᵀ)`. -/
def entry (mu : (⟨2, ![8192, 128]⟩ : Shape).Idx → EReal) (I J : Fin 8192) : EReal :=
  Ideal.logistic (∑ k : Fin 128, mu (ix2 I k) * mu (ix2 J k))

/-- `sigmoid (mu · muᵀ)` as one array. -/
def G (mu : (⟨2, ![8192, 128]⟩ : Shape).Idx → EReal) : (⟨2, ![8192, 8192]⟩ : Shape).Idx → EReal :=
  fun i => entry mu (i 0) (i 1)

theorem G_apply (mu : (⟨2, ![8192, 128]⟩ : Shape).Idx → EReal) (I J : Fin 8192) : G mu (ix2 I J) = entry mu I J := rfl

end Cert.Adj

end
-- ==== Proof.LibMatmul.lean ====
/-
  A matrix product of two rank-2 arrays read at coordinates. For dimension numbers that contract the left operand's
  second axis against the right operand's first, keep the left rows and the right columns and have no batch axis,
  the entry (p, q) of the product is the sum over the contracted position j of lhs (p, j) · rhs (j, q): the left
  operand is read along row p, the right operand along column q. Both the matrix unit's product into a zero
  accumulator and the host's dot product are that sum on the extended reals.
-/
import Idealize.ShloMosaic.Lib.ValueIdx
import Idealize.ShloMosaic.PureOps.Ideal.Laws

open scoped BigOperators

namespace Idealize.ShloMosaic.ValueIdx

open Idealize.ShloMosaic

section RowsByColumns

variable {a k b : ℕ} (d : DotDims ⟨2, ![a, k]⟩ ⟨2, ![k, b]⟩ ⟨2, ![a, b]⟩)

/-- One contracted axis. -/
theorem dot_contr_rank (hl : d.lhsContracting = [1]) : d.contr.rank = 1 := by
  rw [d.rank_contr, hl]; rfl

/-- Its extent is the shared inner extent k. -/
theorem dot_contr_size (hl : d.lhsContracting = [1]) :
    d.contr.size ⟨0, by rw [dot_contr_rank d hl]; exact Nat.one_pos⟩ = k := by
  rw [d.size_contr 0 (by rw [hl]; exact Nat.one_pos), List.getElem_of_eq hl]
  rfl

/-- The contraction index is its one coordinate. -/
noncomputable def dotEquiv (hl : d.lhsContracting = [1]) : d.contr.Idx ≃ Fin k :=
  contrEquiv1 d k (dot_contr_rank d hl) (dot_contr_size d hl)

/-- The left operand is read at row p, contracted position j. -/
theorem dot_lhsIdx_ix2 (hl : d.lhsContracting = [1]) (hln : d.lhsNonContracting = [0]) (hlb : d.lhsBatch = [])
    (p : Fin a) (q : Fin b) (j : Fin k) :
    d.lhsIdx (ix2 p q) ((dotEquiv d hl).symm j) = ix2 p j := by
  funext ax
  apply Fin.ext
  match ax with
  | ⟨0, _⟩ =>
    have hnb : (0 : Fin 2) ∉ d.lhsBatch := by rw [hlb]; exact List.not_mem_nil
    have hn : (0 : Fin 2) ∈ d.lhsNonContracting := by rw [hln]; exact List.mem_singleton.mpr rfl
    show (d.lhsIdx (ix2 p q) ((dotEquiv d hl).symm j) (0 : Fin 2)).val = p.val
    unfold DotDims.lhsIdx
    rw [dif_neg hnb, dif_pos hn]
    simp only [Fin.val_cast]
    have key : ∀ (n : ℕ) (hn : n < (⟨2, ![a, b]⟩ : Shape).rank), n = 0 → ((ix2 p q) ⟨n, hn⟩).val = p.val :=
      fun n hn h => by subst h; rfl
    exact key _ _ (by simp [hlb, hln])
  | ⟨1, _⟩ =>
    show (d.lhsIdx (ix2 p q) ((dotEquiv d hl).symm j) (1 : Fin 2)).val = j.val
    rw [d.lhsIdx_val_of_single hl]
    exact contrEquiv1_symm_val d k (dot_contr_rank d hl) (dot_contr_size d hl) j

/-- The right operand is read at contracted position j, column q. -/
theorem dot_rhsIdx_ix2 (hl : d.lhsContracting = [1]) (hr : d.rhsContracting = [0]) (hln : d.lhsNonContracting = [0])
    (hrn : d.rhsNonContracting = [1]) (hlb : d.lhsBatch = []) (hrb : d.rhsBatch = [])
    (p : Fin a) (q : Fin b) (j : Fin k) :
    d.rhsIdx (ix2 p q) ((dotEquiv d hl).symm j) = ix2 j q := by
  funext ax
  apply Fin.ext
  match ax with
  | ⟨0, _⟩ =>
    show (d.rhsIdx (ix2 p q) ((dotEquiv d hl).symm j) (0 : Fin 2)).val = j.val
    rw [d.rhsIdx_val_of_single hr]
    exact contrEquiv1_symm_val d k (dot_contr_rank d hl) (dot_contr_size d hl) j
  | ⟨1, _⟩ =>
    have hnb : (1 : Fin 2) ∉ d.rhsBatch := by rw [hrb]; exact List.not_mem_nil
    have hn : (1 : Fin 2) ∈ d.rhsNonContracting := by rw [hrn]; exact List.mem_singleton.mpr rfl
    show (d.rhsIdx (ix2 p q) ((dotEquiv d hl).symm j) (1 : Fin 2)).val = q.val
    unfold DotDims.rhsIdx
    rw [dif_neg hnb, dif_pos hn]
    simp only [Fin.val_cast]
    have key : ∀ (n : ℕ) (hn : n < (⟨2, ![a, b]⟩ : Shape).rank), n = 1 → ((ix2 p q) ⟨n, hn⟩).val = q.val :=
      fun n hn h => by subst h; rfl
    exact key _ _ (by simp [hlb, hln, hrn])

variable {φ₁ φ₂ : FTy}

/-- The matrix unit's product into the zero accumulator, at (p, q). -/
theorem matmul_zero_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (lhs : FVec Ideal ⟨2, ![a, k]⟩ φ₁) (rhs : FVec Ideal ⟨2, ![k, b]⟩ φ₂)
    (p : Fin a) (q : Fin b) :
    FloatOps.matmul d prec lhs rhs (constant ⟨2, ![a, b]⟩ .f32 0x00000000#32) (ix2 p q)
      = ∑ j : Fin k, lhs (ix2 p j) * rhs (ix2 j q) := by
  rw [Ideal.matmul_constant_zero_apply, ← Equiv.sum_comp (dotEquiv d hl).symm]
  refine Finset.sum_congr rfl fun j _ => ?_
  rw [dot_lhsIdx_ix2 d hl hln hlb p q j, dot_rhsIdx_ix2 d hl hr hln hrn hlb hrb p q j]

/-- The host's dot product, at (p, q). -/
theorem dotGeneral_ix2 (hl : d.lhsContracting = [1]) (hr : d.rhsContracting = [0]) (hln : d.lhsNonContracting = [0])
    (hrn : d.rhsNonContracting = [1]) (hlb : d.lhsBatch = []) (hrb : d.rhsBatch = [])
    (prec : Option ContractPrecision) (sched : HostSchedule) (lhs : FVec Ideal ⟨2, ![a, k]⟩ φ₁) (rhs : FVec Ideal ⟨2, ![k, b]⟩ φ₂)
    (p : Fin a) (q : Fin b) :
    FloatOps.dotGeneral d prec sched lhs rhs (ix2 p q) = ∑ j : Fin k, lhs (ix2 p j) * rhs (ix2 j q) := by
  rw [Ideal.dotGeneral_apply, ← Equiv.sum_comp (dotEquiv d hl).symm]
  refine Finset.sum_congr rfl fun j _ => ?_
  rw [dot_lhsIdx_ix2 d hl hln hlb p q j, dot_rhsIdx_ix2 d hl hr hln hrn hlb hrb p q j]

end RowsByColumns

end Idealize.ShloMosaic.ValueIdx
-- ==== Proof.KernelValue.lean ====
/-
  The value the region leaves: the output array after the thirty-two grid points is `sigmoid (mu · muᵀ)` of the array
  `mu` (8192 × 128) that both input windows read.  At grid point `(i, j)` the body holds rows `2048·i …` of `mu` as its
  first block and rows `1024·j …` of `mu` as its second, and stores the logistic of the first block times the transpose
  of the second — entry `(p, q)` of the stored block is `logistic (Σ_k mu (2048·i + p, k) · mu (1024·j + q, k))`, entry
  `(2048·i + p, 1024·j + q)` of `sigmoid (mu · muᵀ)`.  The write-back puts the block at rows `2048·i …`, columns
  `1024·j …` of the output; the thirty-two blocks tile the 8192 × 8192 output, so the output ends holding
  `sigmoid (mu · muᵀ)` everywhere.
-/
import proofs.«174791_j9740985827608_2_alg».proof.Proof.FrameKernelIdeal
import proofs.«174791_j9740985827608_2_alg».proof.Proof.AdjSpec
import proofs.«174791_j9740985827608_2_alg».proof.Proof.LibMatmul
import Idealize.ShloMosaic.Lib.Pipeline.Value

set_option maxRecDepth 16384

noncomputable section

namespace Cert.KernelIdeal.Hand.Value

open Cert.KernelIdeal Cert.KernelIdeal.Gen Cert.KernelIdeal.Hand Idealize.ShloMosaic Idealize.ShloMosaic.TcCoe Idealize.SL.Sem
open Idealize.ShloMosaic.Pipeline (Dat)
open Idealize.ShloMosaic.ValueIdx
open scoped BigOperators

variable (m : (ℓ : Loc nD τ sig) → Buf (Elt Ideal) ℓ) (ρ : Dev nD → PrngReg)

/-! ## The body's payload at an index -/

/-- The transpose of the second block reads it with the coordinates exchanged. -/
theorem transpose_ix2 (x1 : Vec Ideal S1024x128 .bf16) (h : S1024x128.Transposes [1, 0] S128x1024) (k : Fin 128) (q : Fin 1024) :
    transpose S128x1024 [1, 0] x1 h (ix2 k q) = x1 (ix2 q k) :=
  transpose_apply [1, 0] x1 h (ix2 k q) (ix2 q k) fun b => by
    match b with
    | ⟨0, _⟩ => rfl
    | ⟨1, _⟩ => rfl

/-- Entry `(p, q)` of what the body stores: the logistic of row `p` of the first block against row `q` of the second. -/
theorem pay_apply (x0 : Vec Ideal S2048x128 .bf16) (x1 : Vec Ideal S1024x128 .bf16) (p : Fin 2048) (q : Fin 1024) :
    k0_pay1 x0 x1 (ix2 p q) = Ideal.logistic (∑ k : Fin 128, x0 (ix2 p k) * x1 (ix2 q k)) := by
  unfold k0_pay1
  show FloatOps.logistic (FloatOps.matmul dot_S2048x128_S128x1024_S2048x1024_1_0_0_1_n_n none
      (shapeCast S2048x128 x0 shapeCasts_S2048x128_S2048x128)
      (transpose S128x1024 [1, 0] (shapeCast S1024x128 x1 shapeCasts_S1024x128_S1024x128) transposes_S1024x128_p1_0_S128x1024)
      (constant (F := Ideal) S2048x1024 .f32 0x00000000#32) (ix2 p q)) = _
  rw [Ideal.logistic_def, shapeCast_self, shapeCast_self,
    matmul_zero_ix2 dot_S2048x128_S128x1024_S2048x1024_1_0_0_1_n_n rfl rfl rfl rfl rfl rfl]
  congr 1
  exact Finset.sum_congr rfl fun k _ => by rw [transpose_ix2]

/-- The payload at `(p, q)` is entry `(I, J)` of `sigmoid (mu · muᵀ)` when row `p` of the first block is row `I` of `mu`
    and row `q` of the second block is row `J` of `mu`. -/
theorem pay_eq_G (x0 : Vec Ideal S2048x128 .bf16) (x1 : Vec Ideal S1024x128 .bf16) (mu : S8192x128.Idx → EReal)
    (j : S2048x1024.Idx) (i : S8192x8192.Idx)
    (h0 : ∀ k : Fin 128, x0 (ix2 (j 0) k) = mu (ix2 (i 0) k)) (h1 : ∀ k : Fin 128, x1 (ix2 (j 1) k) = mu (ix2 (i 1) k)) :
    k0_pay1 x0 x1 j = Cert.Adj.G mu i := by
  obtain ⟨p, q, rfl⟩ : ∃ (p : Fin 2048) (q : Fin 1024), j = ix2 p q := ⟨j 0, j 1, eq_ix2 j⟩
  have h0' : ∀ k : Fin 128, x0 (ix2 p k) = mu (ix2 (i 0) k) := h0
  have h1' : ∀ k : Fin 128, x1 (ix2 q k) = mu (ix2 (i 1) k) := h1
  rw [pay_apply]
  show _ = Cert.Adj.entry mu (i 0) (i 1)
  unfold Cert.Adj.entry
  congr 1
  exact Finset.sum_congr rfl fun k _ => by rw [h0', h1']

/-! ## From blocks to the array -/

theorem hz : (![0, 0] : Fin 2 → Nat) = fun _ => 0 := funext fun a => by fin_cases a <;> rfl

/-- The printed index maps over the grid: at point `(i, j)` the first input's block is block-row `i`, the second input's
    block-row `j`, the output's block `(i, j)`; `i` is below 4 and `j` below 8. -/
theorem idx_facts : ∀ t : Fin cfg0.N, win0_0.index t (0 : Fin 2) = win0_2.index t (0 : Fin 2)
    ∧ win0_0.index t (1 : Fin 2) = 0
    ∧ win0_1.index t (0 : Fin 2) = win0_2.index t (1 : Fin 2)
    ∧ win0_1.index t (1 : Fin 2) = 0
    ∧ win0_2.index t (0 : Fin 2) ≤ 3 ∧ win0_2.index t (1 : Fin 2) ≤ 7 :=
  (by decide +kernel : ∀ t : Fin grid0.N, _)

/-- Every block `(q0, q1)` of the output is some point's. -/
theorem idx_onto : ∀ (q0 : Fin 4) (q1 : Fin 8), ∃ t : Fin cfg0.N, win0_2.index t = ![q0.val, q1.val] :=
  (by decide +kernel : ∀ (q0 : Fin 4) (q1 : Fin 8), ∃ t : Fin grid0.N, win0_2.index t = ![q0.val, q1.val])

/-- What point `t` writes back is block `t` of `sigmoid (mu · muᵀ)`, `mu` the array both input windows read. -/
theorem flushed2_eq (c : Dev nD) (t : Fin cfg0.N) :
    (dats m 0 c).flushed 2 t = ((cfg0.win 2).blk t).view.read (Elt Ideal) (Cert.Adj.G (V m c main_v67)) := by
  show (cfg0.win 2).cut (grid0.coords t) ((dats m 0 c).after 2 t) = _
  rw [after0_2]
  unfold out0_2
  rw [View.canon_unit_zero hz]
  simp only [View.ld_unit_zero (S := S2048x128) hz, View.ld_unit_zero (S := S1024x128) hz]
  obtain ⟨e0, e1, e2, e3, e4, e5⟩ := idx_facts t
  funext j
  change k0_pay1 (iblk m c 0 t) (iblk m c 1 t) j = _
  rw [View.read_apply, cast_eq]
  refine pay_eq_G _ _ _ _ _ (fun k => ?_) (fun k => ?_)
  · unfold iblk
    rw [View.read_apply, cast_eq]
    refine congrArg (V m c main_v67) (funext fun a => Fin.ext ?_)
    match a with
    | ⟨0, _⟩ => show win0_0.index t (0 : Fin 2) * 2048 + 1 * (j 0).val = win0_2.index t (0 : Fin 2) * 2048 + 1 * (j 0).val; omega
    | ⟨1, _⟩ => show win0_0.index t (1 : Fin 2) * 128 + 1 * k.val = k.val; omega
  · unfold iblk
    rw [View.read_apply, cast_eq]
    refine congrArg (V m c main_v67) (funext fun a => Fin.ext ?_)
    match a with
    | ⟨0, _⟩ => show win0_1.index t (0 : Fin 2) * 1024 + 1 * (j 1).val = win0_2.index t (1 : Fin 2) * 1024 + 1 * (j 1).val; omega
    | ⟨1, _⟩ => show win0_1.index t (1 : Fin 2) * 128 + 1 * k.val = k.val; omega

/-- An index of the output is in point `t`'s block iff each coordinate is in the block's range on its axis. -/
theorem mem_blk2 (t : Fin cfg0.N) (i : S8192x8192.Idx) :
    i ∈ ((cfg0.win 2).blk t).view.set ↔ ∀ a : Fin 2, win0_2.index t a * S2048x1024.size a ≤ (i a).val ∧ (i a).val < win0_2.index t a * S2048x1024.size a + S2048x1024.size a := by
  show i ∈ ((View.whole main_v68).slice (win0_2.rect t)).set ↔ _
  rw [View.set_slice_whole, Rect.mem_set_unit]
  exact Iff.rfl

/-- The blocks tile the output: entry `(I, J)` is in the block of the point `(I / 2048, J / 1024)`. -/
theorem cover2 (i : S8192x8192.Idx) :
    ∃ t : Fin cfg0.N, (cfg0.win 2).flush t = true ∧ i ∈ ((cfg0.win 2).blk t).view.set := by
  have hi0 : (i 0).val < 8192 := (i 0).isLt
  have hi1 : (i 1).val < 8192 := (i 1).isLt
  obtain ⟨t, ht⟩ := idx_onto ⟨(i 0).val / 2048, by omega⟩ ⟨(i 1).val / 1024, by omega⟩
  have q0 : win0_2.index t (0 : Fin 2) = (i 0).val / 2048 := congrFun ht 0
  have q1 : win0_2.index t (1 : Fin 2) = (i 1).val / 1024 := congrFun ht 1
  refine ⟨t, flush0_2 t, ?_⟩
  rw [mem_blk2]
  intro a
  match a with
  | ⟨0, _⟩ => show win0_2.index t (0 : Fin 2) * 2048 ≤ (i 0).val ∧ (i 0).val < win0_2.index t (0 : Fin 2) * 2048 + 2048; omega
  | ⟨1, _⟩ => show win0_2.index t (1 : Fin 2) * 1024 ≤ (i 1).val ∧ (i 1).val < win0_2.index t (1 : Fin 2) * 1024 + 1024; omega

/-- THE OUTPUT ARRAY after the region: `sigmoid (mu · muᵀ)` of the array both input windows read. -/
theorem final2 (c : Dev nD) : (dats (F := Ideal) m 0 c).arrAt 2 cfg0.N = Cert.Adj.G (V m c main_v67) :=
  (dats m 0 c).arrAt_eq_of_cover 2 (Cert.Adj.G (V m c main_v67)) (fun t _ => flushed2_eq m c t) cover2

/-! ## The run, read -/

/-- Every weakly fair execution of @main terminates with the output array at `sigmoid (mu · muᵀ)` of the array the region
    read, the two arrays the host computed beside it as the region found them, and the arguments unchanged. -/
theorem run_value : θ_run defs (onTc (τ := τ) (main (F := Ideal))) ⟨m, fun _ => 0, ρ⟩ (fun r => ∀ c : Dev nD,
      r.2.mem ((c.tc : Thread nD τ).loc main_v68) = Cert.Adj.G (V m c main_v67)
      ∧ r.2.mem ((c.tc : Thread nD τ).loc main_v62) = V m c main_v62
      ∧ r.2.mem ((c.tc : Thread nD τ).loc main_v66) = V m c main_v66
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨
      ((h c).1 2).trans (final2 m c),
      (h c).2 main_v62 (Pipeline.mem_restRefs_of main_v62 (by decide) (by decide)),
      (h c).2 main_v66 (Pipeline.mem_restRefs_of main_v66 (by decide) (by decide)),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c)⟩) (run_main m ρ)

/-- info: 'Cert.KernelIdeal.Hand.Value.run_value' depends on axioms: [propext, Classical.choice, Quot.sound] -/
#guard_msgs in #print axioms run_value

end Cert.KernelIdeal.Hand.Value

end
-- ==== Proof.LibReadThrough.lean ====
/-
  Two facts that let a one-pass reading of a fold of host lines go all the way down to the buffers the lines start from,
  and the pass that uses them.
  • TRANSPORTS. A line of a module-local function is written through typed references: it reads an operand through
    `ofBuf` and writes its result through `toBuf`, transports along the reference's type fact. Contents written through a
    typed reference and read back through the same one are the contents (`TRef.ofBuf_toBuf`): with it a chain of such
    lines reads as the plain composition of the lines' functions, transports left only where a typed line meets a
    plain one.
  • A TWO-OPERAND CONCATENATE. The printed `concatenate t a [⟨s₁, x⟩, ⟨s₂, y⟩] h` carries a fact `h` stated over the operand
    list itself, so a rewriting pass may not change the list and never looks inside it. As `joinTwo t a s₁ s₂ h' x y`,
    an ordinary function of the two operands, the pass goes on into `x` and `y` (`concatenate_two`, by `rfl`).
  • `after_results_through`: the library's one-pass reading (`after_results_simp`) with these two added. Use it on a goal
    `after ops V (Proc.devRef .tc r) = …` over a literal list `ops`; what is left is the composed term over `V` at the
    argument buffers, for `rfl` against the intended function.
-/
import Idealize.ShloMosaic.Lib.StableHlo.Run

noncomputable section

namespace Idealize.ShloMosaic.StableHlo.TRef

variable {sig : RefSig} {Val : EltTy → Type} {T : BufTy}

/-- Contents written through a typed reference and read back through the same one are the contents. -/
theorem ofBuf_toBuf (x : TRef sig T) (v : T.Contents Val) : x.ofBuf (x.toBuf v) = v := by
  obtain ⟨r, rfl, _, _⟩ := x
  rfl

end Idealize.ShloMosaic.StableHlo.TRef

namespace Cert.LibReadThrough

open Idealize.ShloMosaic

/-- Two arrays joined along axis `a` of the result shape `t`, as a function of the two arrays. -/
def joinTwo {α : Type} (t : Shape) (a : Fin t.rank) (s₁ s₂ : Shape) (h : Shape.Concatenates [s₁, s₂] t a)
    (x : s₁.Idx → α) (y : s₂.Idx → α) : t.Idx → α :=
  concatenate t a [⟨s₁, x⟩, ⟨s₂, y⟩] h

/-- The printed two-operand concatenate is that function, whatever proof of the shapes' fit it carries (the fact is
    stated over the operand list, so its type is read off the printed term). -/
theorem concatenate_two {α : Type} (t : Shape) (a : Fin t.rank) (s₁ s₂ : Shape) (x : s₁.Idx → α) (y : s₂.Idx → α) {h} :
    concatenate t a [⟨s₁, x⟩, ⟨s₂, y⟩] h = joinTwo t a s₁ s₂ h x y := rfl

end Cert.LibReadThrough

/-- The library's one-pass reading of a fold of host lines at a buffer, reading through typed-reference transports and
    into the operands of a two-operand concatenate. -/
macro "after_results_through" : tactic =>
  `(tactic| (simp (disch := decide) only [Idealize.ShloMosaic.StableHlo.after_cons, Idealize.ShloMosaic.StableHlo.after_nil,
      Idealize.ShloMosaic.StableHlo.nullary_result', Idealize.ShloMosaic.StableHlo.unary_result',
      Idealize.ShloMosaic.StableHlo.binary_result', Idealize.ShloMosaic.StableHlo.ternary_result',
      Idealize.ShloMosaic.StableHlo.quaternary_result', Idealize.ShloMosaic.StableHlo.reshape_result',
      Idealize.ShloMosaic.StableHlo.nullary_result_ne', Idealize.ShloMosaic.StableHlo.unary_result_ne',
      Idealize.ShloMosaic.StableHlo.binary_result_ne', Idealize.ShloMosaic.StableHlo.ternary_result_ne',
      Idealize.ShloMosaic.StableHlo.quaternary_result_ne', Idealize.ShloMosaic.StableHlo.reshape_result_ne',
      Cert.LibReadThrough.concatenate_two, Idealize.ShloMosaic.StableHlo.TRef.ofBuf_toBuf]))

end
-- ==== Proof.RefArgs.lean ====
/-
  No host operation of the reference writes an argument: after all 144 operations each argument buffer holds what it
  was launched with.
-/
import proofs.«174791_j9740985827608_2_alg».proof.Proof.RefRun
import proofs.«174791_j9740985827608_2_alg».proof.Proof.LibReadThrough
import Idealize.ShloMosaic.PureOps.Ideal

set_option maxRecDepth 16384

noncomputable section

namespace Cert.ReferenceIdeal.NetArgs

open Idealize.ShloMosaic Idealize.ShloMosaic.TcCoe Idealize.SL.Sem Idealize.ShloMosaic.StableHlo
open Cert.ReferenceIdeal Cert.ReferenceIdeal.RunP

variable (V : Valuation τ sig (Elt Ideal))

theorem R_arg0 : after (ops (F := Ideal)) V (Proc.devRef .tc main_arg0) = V (Proc.devRef .tc main_arg0) := by
  simp only [ops]
  after_results_through
theorem R_arg1 : after (ops (F := Ideal)) V (Proc.devRef .tc main_arg1) = V (Proc.devRef .tc main_arg1) := by
  simp only [ops]
  after_results_through
theorem R_arg2 : after (ops (F := Ideal)) V (Proc.devRef .tc main_arg2) = V (Proc.devRef .tc main_arg2) := by
  simp only [ops]
  after_results_through
theorem R_arg3 : after (ops (F := Ideal)) V (Proc.devRef .tc main_arg3) = V (Proc.devRef .tc main_arg3) := by
  simp only [ops]
  after_results_through
theorem R_arg4 : after (ops (F := Ideal)) V (Proc.devRef .tc main_arg4) = V (Proc.devRef .tc main_arg4) := by
  simp only [ops]
  after_results_through
theorem R_arg5 : after (ops (F := Ideal)) V (Proc.devRef .tc main_arg5) = V (Proc.devRef .tc main_arg5) := by
  simp only [ops]
  after_results_through
theorem R_arg6 : after (ops (F := Ideal)) V (Proc.devRef .tc main_arg6) = V (Proc.devRef .tc main_arg6) := by
  simp only [ops]
  after_results_through
theorem R_arg7 : after (ops (F := Ideal)) V (Proc.devRef .tc main_arg7) = V (Proc.devRef .tc main_arg7) := by
  simp only [ops]
  after_results_through
theorem R_arg8 : after (ops (F := Ideal)) V (Proc.devRef .tc main_arg8) = V (Proc.devRef .tc main_arg8) := by
  simp only [ops]
  after_results_through
theorem R_arg9 : after (ops (F := Ideal)) V (Proc.devRef .tc main_arg9) = V (Proc.devRef .tc main_arg9) := by
  simp only [ops]
  after_results_through

end Cert.ReferenceIdeal.NetArgs

end
-- ==== Proof.LibFoldStages.lean ====
/-
  A fold of host operations over a list cut in two is the second part's fold over the first part's.
-/
import Idealize.ShloMosaic.Lib.StableHlo.Run

noncomputable section

namespace Cert.FoldStages

open Idealize.ShloMosaic Idealize.SL.Sem Idealize.ShloMosaic.StableHlo

variable {τ : Topo} {sig : RefSig} {Val : EltTy → Type}

theorem after_append (l₁ l₂ : List (HloOp τ sig Val)) (V : Valuation τ sig Val) :
    after (l₁ ++ l₂) V = after l₂ (after l₁ V) := by
  induction l₁ generalizing V with
  | nil => rfl
  | cons op l ih => exact ih (op.result V)

/-- Cut after the first `a` operations and again `b` operations later. -/
theorem after_cut (l : List (HloOp τ sig Val)) (a b : Nat) (V : Valuation τ sig Val) :
    after l V = after (l.drop (a + b)) (after ((l.drop a).take b) (after (l.take a) V)) := by
  conv_lhs => rw [← List.take_append_drop a l, after_append, ← List.take_append_drop b (l.drop a), after_append,
    List.drop_drop]

/-- Cut once, after the first `a` operations. -/
theorem after_cut1 (l : List (HloOp τ sig Val)) (a : Nat) (V : Valuation τ sig Val) :
    after l V = after (l.drop a) (after (l.take a) V) := by
  conv_lhs => rw [← List.take_append_drop a l, after_append]

end Cert.FoldStages

end
-- ==== Proof.LibRowIndex.lean ====
/-
  Indexing the rows of a matrix by a column of row numbers, on the host: which operand row a gathered element reads,
  and where a scattered row lands.

  `x[idx]` of a matrix `x : [N, D]` (or of a vector `x : [N]`) at a column `idx : [E, 1]` of row numbers is a
  `gather` whose start index on the row axis is the row number read SIGNED and CLAMPED into `[0, N − 1]`
  (`rows_operandIdx_row`, `vec_operandIdx`): element `(e, c)` of the result reads row `clamp idx[e]`.
  A row-wise `scatter` of `[E, D]` updates into `[N, D]` at the same kind of column is NOT clamped: update row `e`
  lands on row `n` only if the row number read signed IS `n` (`rowScatter_lands`); any other row number drops it.
-/
import Idealize.ShloMosaic.Lib.ValueIdx

noncomputable section

namespace Idealize.ShloMosaic.RowIndex

open Idealize.ShloMosaic Idealize.ShloMosaic.ValueIdx

/-- Entry `e` of a column `[E, 1]`. -/
abbrev atRow {E : Nat} (e : Fin E) : (⟨2, ![E, 1]⟩ : Shape).Idx := ix2 e (⟨0, Nat.one_pos⟩ : Fin 1)

variable (N D E : Nat)

/-! ## Whole rows of a matrix gathered at a column of row numbers -/

/-- The dimension numbers of `x[idx]` for `x : [N, D]`, `idx : [E, 1]`: the row axis collapsed and indexed, the
    column axis a full-width offset axis. -/
abbrev rowsDims (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Result element `j = (e, c)` reads operand row `clamp idx[e]`. -/
theorem rows_operandIdx_row {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 0).val = min (idx (atRow ⟨(j 0).val, idx2_lt0 j⟩)).toInt.toNat (N - 1) := by
  show (rowsDims N D E wf).start j idx 0 + (rowsDims N D E wf).batchCoord j 0 + (rowsDims N D E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowsDims N D E wf).startIndexMap from List.mem_singleton.mpr rfl)]
  have hsi : (rowsDims N D E wf).siIdx j ⟨List.idxOf (0 : Fin 2) (rowsDims N D E wf).startIndexMap,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]
  rfl

/-! ## Entries of a vector gathered at a column of positions -/

/-- The dimension numbers of `x[idx]` for `x : [N]`, `idx : [E, 1]`. -/
abbrev vecDims (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` reads operand entry `clamp idx[e]`. -/
theorem vec_operandIdx {w : Nat} (wf : GatherDims.WF ⟨1, ![N]⟩ ⟨2, ![E, 1]⟩ ⟨1, ![E]⟩ [] [0] [] [0] [] 1 ![1])
    (idx : IVec ⟨2, ![E, 1]⟩ w) (e : (⟨1, ![E]⟩ : Shape).Idx) :
    ((vecDims N E wf).operandIdx e idx 0).val = min (idx (atRow ⟨(e 0).val, (e 0).isLt⟩)).toInt.toNat (N - 1) := by
  show (vecDims N E wf).start e idx 0 + (vecDims N E wf).batchCoord e 0 + (vecDims N E wf).offCoord e 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N E wf).startIndexMap from List.mem_singleton.mpr rfl)]
  have hsi : (vecDims N E wf).siIdx e ⟨List.idxOf (0 : Fin 1) (vecDims N E wf).startIndexMap,
      List.idxOf_lt_length_iff.2 (List.mem_singleton.mpr rfl)⟩ = atRow ⟨(e 0).val, (e 0).isLt⟩ := by
    funext b; refine Fin.ext ?_
    match b with
    | ⟨0, _⟩ => rfl
    | ⟨1, _⟩ => rfl
  rw [hsi]
  rfl

/-! ## Rows scattered at a column of row numbers -/

/-- The dimension numbers of a row-wise scatter of `[E, D]` updates into `[N, D]` at `idx : [E, 1]`. -/
abbrev rowScatter (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

/-- An update element `j = (e, c)` that lands on `i = (n, c')` has row number `idx[e]`, read signed, equal to `n`. -/
theorem rowScatter_lands {w : Nat} (wf : ScatterDims.WF ⟨2, ![N, D]⟩ ⟨2, ![E, 1]⟩ ⟨2, ![E, D]⟩ [1] [0] [0] 1)
    (idx : IVec ⟨2, ![E, 1]⟩ w) (j : (⟨2, ![E, D]⟩ : Shape).Idx) (i : (⟨2, ![N, D]⟩ : Shape).Idx)
    (h : (rowScatter N D E wf).resultIdx? j idx = some i) :
    (idx (atRow ⟨(j 0).val, idx2_lt0 j⟩)).toInt = ((i 0).val : Int) := by
  have hs : (rowScatter N D E wf).start j idx 0 = (idx (atRow ⟨(j 0).val, idx2_lt0 j⟩)).toInt := by
    unfold ScatterDims.start
    rw [dif_pos (show (0 : Fin 2) ∈ (rowScatter N D E wf).scatterDimsToOperandDims from List.mem_singleton.mpr rfl)]
    have hsi : (rowScatter N D E wf).siIdx j ⟨List.idxOf (0 : Fin 2) (rowScatter N D E wf).scatterDimsToOperandDims,
        List.idxOf_lt_length_iff.2 (List.mem_singleton.mpr rfl)⟩ = atRow ⟨(j 0).val, idx2_lt0 j⟩ := by
      funext b; refine Fin.ext ?_
      match b with
      | ⟨0, _⟩ => rfl
      | ⟨1, _⟩ => rfl
    rw [hsi]
  have hw : (rowScatter N D E wf).window j 0 = 0 := by
    have hk : (0 : Fin 2) ∉ (rowScatter N D E wf).sKept := by
      intro hmem
      have h2 : (0 : Fin 2) ∈ (List.finRange 2).filter (· ∉ ([0] : List (Fin 2))) := hmem
      simp at h2
    unfold ScatterDims.window
    rw [dif_neg hk]
  unfold ScatterDims.resultIdx? at h
  split at h
  · rename_i hb
    have h0 : ((rowScatter N D E wf).start j idx 0 + ((rowScatter N D E wf).window j 0 : Int)).toNat = (i 0).val :=
      congrArg (fun f => (f 0).val) (Option.some.inj h)
    have h1 := (hb 0).1
    rw [hs, hw] at h0 h1
    omega
  · exact absurd h (by simp)

/-! ## A row number already in range -/

/-- A row number that reads signed as a natural `n` below `N` is left alone by wrapping (a negative number gets an offset
    added) and by clamping into `[0, N − 1]`: it is not negative, and it is in range. -/
theorem wrap_clamp_of_toInt_eq {N : Nat} (c off : BitVec 32) (n : Nat) (hn : n < N) (hc : c.toInt = (n : Int)) :
    min (Scalar.select (IntOp.cmpi .slt c 0#32) (IntOp.addi c off) c).toInt.toNat (N - 1) = n := by
  have hlt : ¬ (c.toInt < (0#32 : BitVec 32).toInt) := by
    rw [hc]
    simp
  have hcmp : IntOp.cmpi .slt c 0#32 = 0#1 := by
    show BitVec.ofBool (c.slt 0#32) = 0#1
    rw [BitVec.slt, decide_eq_false hlt]
    rfl
  rw [hcmp]
  show min c.toInt.toNat (N - 1) = n
  rw [hc, Int.toNat_natCast]
  omega

end Idealize.ShloMosaic.RowIndex
-- ==== Proof.LibHostColumns.lean ====
/-
  Host forms of a keepdims reduction, read at coordinates. A reduction over the columns of an `[a, b]` array leaves one
  value per row; the index of row `p` with column `k` put back is `(p, k)`. The host lays a per-row value back against
  the rows by two `broadcast_in_dim`s: `[a]` to the column `[a, 1]` (operand axis 0 on result axis 0), then the column
  to `[a, b]` (operand axes on the same result axes, the unit axis repeated). At `(p, c)` the result is the value of
  row `p`.
-/
import Idealize.ShloMosaic.Lib.ValueIdx
import Idealize.ShloMosaic.Lib.Pipeline.Value
import Idealize.ShloMosaic.PureOps.Reduce

namespace Idealize.ShloMosaic.ValueIdx

variable {α : Type}

/-- The reduced index `p` of a reduction over the columns, with column `k` put back, is `(p, k)`. -/
theorem lift_ix1_columns {a b : ℕ} (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- An `[a]` array laid out as the column `[a, 1]` by the host's broadcast reads, at `(i, u)`, the operand at `i`. -/
theorem broadcastInDim_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ (![0] : Fin 1 → Fin 2) h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column `[a, 1]` laid against `b` columns by the host's broadcast reads, at `(p, c)`, the column at `(p, 0)`. -/
theorem broadcastInDim_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A per-row value laid out as a column and then against every column reads, at `(p, c)`, the value of row `p`. -/
theorem broadcastInDim_column_apply {a b : ℕ} (x : (⟨1, ![a]⟩ : Shape).Idx → α)
    (h1 : (⟨1, ![a]⟩ : Shape).BroadcastsInDim ⟨2, ![a, 1]⟩ (![0] : Fin 1 → Fin 2))
    (h2 : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h2 (broadcastInDim ⟨2, ![a, 1]⟩ (![0] : Fin 1 → Fin 2) h1 x) (ix2 p c)
      = x (ix1 p) :=
  (broadcastInDim_a1_ab_apply _ h2 p c).trans (broadcastInDim_a_a1_apply x h1 p 0)

end Idealize.ShloMosaic.ValueIdx
-- ==== Proof.LibRowScatterSum.lean ====
/-
  Rows of a matrix gathered and scattered at a column of row numbers, read at coordinates.

  For `x : [N, D]` and a column `idx : [E, 1]` of row numbers:
  * element `(e, c)` of the gather `x[idx]` reads operand column `c` (`rows_operandIdx_col`), so it is
    `x (clamp idx[e], c)` (`rows_operandIdx_ix2`, `gather_rows_apply`);
  * an update element `(e, c)` of a row-wise scatter lands on `(n, c')` exactly when the row number `idx[e]`, read
    signed, is `n`, and `c = c'` (`rowScatter_resultIdx?_eq_some_iff`): the row is not clamped, the column is kept;
  * hence the host's accumulating scatter, on the extended reals, is at `(n, c)` the operand there plus the sum of
    `upd (e, c)` over the update rows `e` whose row number is `n` (`hostScatterAdd_rows_apply`): a segment sum;
    `rowsTo_column` names those rows when the column is a vector laid out as `[E, 1]`.
  It builds on the row-index lemmas (rows_operandIdx_row, rowScatter) and the host's column broadcast read at
  coordinates, which it imports.
-/
import proofs.«174791_j9740985827608_2_alg».proof.Proof.LibRowIndex
import proofs.«174791_j9740985827608_2_alg».proof.Proof.LibHostColumns
import Idealize.ShloMosaic.PureOps.Ideal

noncomputable section

namespace Idealize.ShloMosaic.RowIndex

open Idealize.ShloMosaic Idealize.ShloMosaic.ValueIdx

variable (N D E : Nat)

/-! ## The gathered element's column -/

/-- Result element `j = (e, c)` of a row gather reads operand column `c`. -/
theorem rows_operandIdx_col {w : Nat}
    (wf : GatherDims.WF ⟨2, ![N, D]⟩ ⟨2, ![E, 1]⟩ ⟨2, ![E, D]⟩ [1] [0] [] [0] [] 1 ![1, D])
    (idx : IVec ⟨2, ![E, 1]⟩ w) (j : (⟨2, ![E, D]⟩ : Shape).Idx) :
    ((rowsDims N D E wf).operandIdx j idx 1).val = (j 1).val := by
  show (rowsDims N D E wf).start j idx 1 + (rowsDims N D E wf).batchCoord j 1 + (rowsDims N D E wf).offCoord j 1 = _
  rw [GatherDims.batchCoord_eq_zero _ _ _ List.not_mem_nil]
  have hs : (rowsDims N D E wf).start j idx 1 = 0 := by
    unfold GatherDims.start
    rw [dif_neg (fun h => absurd (List.mem_singleton.mp h) (show ¬ ((1 : Fin 2) = 0) by decide))]
  have hk : (1 : Fin 2) ∈ (rowsDims N D E wf).sKept :=
    (GatherDims.mem_sKept _ _).mpr ⟨fun h => absurd (List.mem_singleton.mp h) (show ¬ ((1 : Fin 2) = 0) by decide), List.not_mem_nil⟩
  rw [hs]
  unfold GatherDims.offCoord
  rw [dif_pos hk]
  simp only [Nat.zero_add]
  rfl

/-- Result element `(e, c)` of a row gather reads the operand at `(clamp idx[e], c)`. -/
theorem rows_operandIdx_ix2 {w : Nat} (hN : 0 < N)
    (wf : GatherDims.WF ⟨2, ![N, D]⟩ ⟨2, ![E, 1]⟩ ⟨2, ![E, D]⟩ [1] [0] [] [0] [] 1 ![1, D])
    (idx : IVec ⟨2, ![E, 1]⟩ w) (e : Fin E) (c : Fin D) :
    (rowsDims N D E wf).operandIdx (ix2 e c) idx
      = ix2 (⟨min (idx (atRow e)).toInt.toNat (N - 1), Nat.lt_of_le_of_lt (Nat.min_le_right _ _) (by omega)⟩ : Fin N) c := by
  funext a
  apply Fin.ext
  match a with
  | ⟨0, _⟩ => exact rows_operandIdx_row N D E wf idx (ix2 e c)
  | ⟨1, _⟩ => exact rows_operandIdx_col N D E wf idx (ix2 e c)

/-- The host's row gather at `(e, c)` is the operand at `(clamp idx[e], c)`. -/
theorem gather_rows_apply {α : Type} {w : Nat} (hN : 0 < N)
    (wf : GatherDims.WF ⟨2, ![N, D]⟩ ⟨2, ![E, 1]⟩ ⟨2, ![E, D]⟩ [1] [0] [] [0] [] 1 ![1, D])
    (x : (⟨2, ![N, D]⟩ : Shape).Idx → α) (idx : IVec ⟨2, ![E, 1]⟩ w) (e : Fin E) (c : Fin D) :
    Host.gather (rowsDims N D E wf) x idx (ix2 e c)
      = x (ix2 (⟨min (idx (atRow e)).toInt.toNat (N - 1), Nat.lt_of_le_of_lt (Nat.min_le_right _ _) (by omega)⟩ : Fin N) c) :=
  congrArg x (rows_operandIdx_ix2 N D E hN wf idx e c)

/-! ## Where an update element of a row scatter lands -/

section Lands

variable {w : Nat} (wf : ScatterDims.WF ⟨2, ![N, D]⟩ ⟨2, ![E, 1]⟩ ⟨2, ![E, D]⟩ [1] [0] [0] 1)
  (idx : IVec ⟨2, ![E, 1]⟩ w) (j : (⟨2, ![E, D]⟩ : Shape).Idx)

/-- On the row axis the window starts at the row number read signed. -/
theorem rowScatter_start_row :
    (rowScatter N D E wf).start j idx 0 = (idx (atRow ⟨(j 0).val, idx2_lt0 j⟩)).toInt := by
  unfold ScatterDims.start
  rw [dif_pos (show (0 : Fin 2) ∈ (rowScatter N D E wf).scatterDimsToOperandDims from List.mem_singleton.mpr rfl)]
  have hsi : (rowScatter N D E wf).siIdx j ⟨List.idxOf (0 : Fin 2) (rowScatter N D E wf).scatterDimsToOperandDims,
      List.idxOf_lt_length_iff.2 (List.mem_singleton.mpr rfl)⟩ = atRow ⟨(j 0).val, idx2_lt0 j⟩ := by
    funext b; refine Fin.ext ?_
    match b with
    | ⟨0, _⟩ => rfl
    | ⟨1, _⟩ => rfl
  rw [hsi]

/-- On the column axis the window starts at zero: no index names that axis. -/
theorem rowScatter_start_col : (rowScatter N D E wf).start j idx 1 = 0 := by
  unfold ScatterDims.start
  rw [dif_neg (fun h => absurd (List.mem_singleton.mp h) (show ¬ ((1 : Fin 2) = 0) by decide))]

/-- The row axis is inserted: no window coordinate. -/
theorem rowScatter_window_row : (rowScatter N D E wf).window j 0 = 0 := by
  have hk : (0 : Fin 2) ∉ (rowScatter N D E wf).sKept := by
    intro hmem
    have h2 : (0 : Fin 2) ∈ (List.finRange 2).filter (· ∉ ([0] : List (Fin 2))) := hmem
    simp at h2
  unfold ScatterDims.window
  rw [dif_neg hk]

/-- The column axis carries the update's column. -/
theorem rowScatter_window_col : (rowScatter N D E wf).window j 1 = (j 1).val := by
  have hk : (1 : Fin 2) ∈ (rowScatter N D E wf).sKept := by
    show (1 : Fin 2) ∈ (List.finRange 2).filter (· ∉ ([0] : List (Fin 2)))
    decide
  unfold ScatterDims.window
  rw [dif_pos hk]
  rfl

/-- An update element `j = (e, c)` lands on `i = (n, c')` exactly when its row number, read signed, is `n` and
    `c = c'`. -/
theorem rowScatter_resultIdx?_eq_some_iff (i : (⟨2, ![N, D]⟩ : Shape).Idx) :
    (rowScatter N D E wf).resultIdx? j idx = some i
      ↔ (idx (atRow ⟨(j 0).val, idx2_lt0 j⟩)).toInt = ((i 0).val : Int) ∧ (j 1).val = (i 1).val := by
  have hs0 := rowScatter_start_row N D E wf idx j
  have hs1 := rowScatter_start_col N D E wf idx j
  have hw0 := rowScatter_window_row N D E wf j
  have hw1 := rowScatter_window_col N D E wf j
  have hi0 : (i 0).val < N := idx2_lt0 i
  have hi1 : (i 1).val < D := idx2_lt1 i
  have hj1 : (j 1).val < D := idx2_lt1 j
  unfold ScatterDims.resultIdx?
  split
  · rename_i hb
    constructor
    · intro h
      have h0 : ((rowScatter N D E wf).start j idx 0 + ((rowScatter N D E wf).window j 0 : Int)).toNat = (i 0).val :=
        congrArg (fun f => (f 0).val) (Option.some.inj h)
      have h1 : ((rowScatter N D E wf).start j idx 1 + ((rowScatter N D E wf).window j 1 : Int)).toNat = (i 1).val :=
        congrArg (fun f => (f 1).val) (Option.some.inj h)
      have hb0 := (hb 0).1
      rw [hs0, hw0] at h0 hb0
      rw [hs1, hw1] at h1
      constructor <;> omega
    · rintro ⟨h0, h1⟩
      refine congrArg some (funext fun a => Fin.ext ?_)
      match a with
      | ⟨0, _⟩ =>
        show ((rowScatter N D E wf).start j idx 0 + ((rowScatter N D E wf).window j 0 : Int)).toNat = (i 0).val
        rw [hs0, hw0, h0]; omega
      | ⟨1, _⟩ =>
        show ((rowScatter N D E wf).start j idx 1 + ((rowScatter N D E wf).window j 1 : Int)).toNat = (i 1).val
        rw [hs1, hw1]; omega
  · rename_i hb
    constructor
    · intro h; exact absurd h (by simp)
    · rintro ⟨h0, h1⟩
      refine absurd (fun a => ?_) hb
      match a with
      | ⟨0, _⟩ =>
        show 0 ≤ (rowScatter N D E wf).start j idx 0 + ((rowScatter N D E wf).window j 0 : Int)
          ∧ (rowScatter N D E wf).start j idx 0 + ((rowScatter N D E wf).window j 0 : Int) < (N : Int)
        rw [hs0, hw0, h0]; omega
      | ⟨1, _⟩ =>
        show 0 ≤ (rowScatter N D E wf).start j idx 1 + ((rowScatter N D E wf).window j 1 : Int)
          ∧ (rowScatter N D E wf).start j idx 1 + ((rowScatter N D E wf).window j 1 : Int) < (D : Int)
        rw [hs1, hw1]; omega

end Lands

/-! ## The accumulating row scatter as a segment sum -/

/-- The update rows whose row number, read signed, is `n`. -/
def rowsTo {w : Nat} (idx : IVec ⟨2, ![E, 1]⟩ w) (n : Nat) : Finset (Fin E) :=
  Finset.univ.filter fun e => (idx (atRow e)).toInt = (n : Int)

/-- When the column of row numbers is a vector `x : [E]` laid out as `[E, 1]` by the host's broadcast, the rows sent to
    `n` are the positions `e` with `x e`, read signed, equal to `n`. -/
theorem rowsTo_column {w : Nat} (x : IVec ⟨1, ![E]⟩ w)
    (h : (⟨1, ![E]⟩ : Shape).BroadcastsInDim ⟨2, ![E, 1]⟩ (![0] : Fin 1 → Fin 2)) (n : Nat) :
    rowsTo E (broadcastInDim ⟨2, ![E, 1]⟩ (![0] : Fin 1 → Fin 2) h x) n
      = Finset.univ.filter fun e : Fin E => (x (ix1 e)).toInt = (n : Int) := by
  unfold rowsTo
  refine Finset.filter_congr fun e _ => ?_
  rw [show broadcastInDim ⟨2, ![E, 1]⟩ (![0] : Fin 1 → Fin 2) h x (atRow e) = x (ix1 e) from
    broadcastInDim_a_a1_apply x h e _]

/-- On the extended reals the host's accumulating row scatter is, at `(n, c)`, the operand there plus the sum of the
    updates `(e, c)` over the rows `e` sent to `n`. -/
theorem hostScatterAdd_rows_apply {w : Nat} (wf : ScatterDims.WF ⟨2, ![N, D]⟩ ⟨2, ![E, 1]⟩ ⟨2, ![E, D]⟩ [1] [0] [0] 1)
    (x : (⟨2, ![N, D]⟩ : Shape).Idx → EReal) (idx : IVec ⟨2, ![E, 1]⟩ w) (upd : (⟨2, ![E, D]⟩ : Shape).Idx → EReal)
    (n : Fin N) (c : Fin D) :
    Ideal.hostScatterAdd (rowScatter N D E wf) x idx upd (ix2 n c)
      = x (ix2 n c) + ∑ e ∈ rowsTo E idx n.val, upd (ix2 e c) := by
  unfold Ideal.hostScatterAdd rowsTo
  refine congrArg (x (ix2 n c) + ·) ?_
  refine Finset.sum_bij' (fun j _ => (⟨(j 0).val, idx2_lt0 j⟩ : Fin E)) (fun e _ => ix2 e c) ?_ ?_ ?_ ?_ ?_
  · intro j hj
    have h := (rowScatter_resultIdx?_eq_some_iff N D E wf idx j (ix2 n c)).mp (Finset.mem_filter.mp hj).2
    exact Finset.mem_filter.mpr ⟨Finset.mem_univ _, h.1⟩
  · intro e he
    have h := (Finset.mem_filter.mp he).2
    exact Finset.mem_filter.mpr ⟨Finset.mem_univ _,
      (rowScatter_resultIdx?_eq_some_iff N D E wf idx (ix2 e c) (ix2 n c)).mpr ⟨h, rfl⟩⟩
  · intro j hj
    have h := (rowScatter_resultIdx?_eq_some_iff N D E wf idx j (ix2 n c)).mp (Finset.mem_filter.mp hj).2
    funext a; apply Fin.ext
    match a with
    | ⟨0, _⟩ => rfl
    | ⟨1, _⟩ => exact h.2.symm
  · intro e _
    rfl
  · intro j hj
    have h := (rowScatter_resultIdx?_eq_some_iff N D E wf idx j (ix2 n c)).mp (Finset.mem_filter.mp hj).2
    refine congrArg upd ?_
    funext a; apply Fin.ext
    match a with
    | ⟨0, _⟩ => rfl
    | ⟨1, _⟩ => exact h.2

/-- The same for the host operation as a program prints it, `Host.scatterAdd` read on the extended reals. -/
theorem scatterAdd_rows_apply {φ : FTy} {w : Nat}
    (wf : ScatterDims.WF ⟨2, ![N, D]⟩ ⟨2, ![E, 1]⟩ ⟨2, ![E, D]⟩ [1] [0] [0] 1)
    (x : FVec Ideal ⟨2, ![N, D]⟩ φ) (idx : IVec ⟨2, ![E, 1]⟩ w) (upd : FVec Ideal ⟨2, ![E, D]⟩ φ)
    (n : Fin N) (c : Fin D) :
    Host.scatterAdd (rowScatter N D E wf) x idx upd (ix2 n c)
      = x (ix2 n c) + ∑ e ∈ rowsTo E idx n.val, upd (ix2 e c) :=
  hostScatterAdd_rows_apply N D E wf x idx upd n c

end Idealize.ShloMosaic.RowIndex
-- ==== Proof.LibVecIndex.lean ====
/-
  Entries of a vector gathered and scattered at a column of positions, two vectors laid end to end, and a sum over the
  joined range split at the joint — read at coordinates.

  For a vector `x : [N]` and a column `idx : [E, 1]` of positions:
  * element `e` of the gather `x[idx]` is `x (clamp idx[e])`, the position read signed and clamped into
    `[0, N − 1]` (`gather_vec_apply`);
  * an update element `e` of an entry-wise scatter of `[E]` updates lands on entry `n` exactly when the position
    `idx[e]`, read signed, is `n` (`vecScatter_resultIdx?_eq_some_iff`): the position is not clamped;
  * hence the host's accumulating scatter, on the extended reals, is at `n` the operand there plus the sum of
    `upd e` over the updates `e` whose position is `n` (`hostScatterAdd_vec_apply`): a segment sum.
  For `x : [a]` and `y : [b]` laid end to end into `[c]`, `c = a + b`: position `p < a` reads `x p`, position
  `a + q` reads `y q` (`concatenate_vec_apply_left` / `_right`); and a sum over `Fin c` is the sum over the first
  `a` positions plus the sum over the last `b` (`sum_fin_split`; `sum_filter_fin_split` for a filtered sum).
-/
import proofs.«174791_j9740985827608_2_alg».proof.Proof.LibRowScatterSum
import Idealize.ShloMosaic.Lib.Pipeline.Value

noncomputable section

open scoped BigOperators

namespace Idealize.ShloMosaic.RowIndex

open Idealize.ShloMosaic Idealize.ShloMosaic.ValueIdx

variable (N E : Nat)

/-! ## Entries of a vector gathered at a column of positions -/

/-- Result element `e` of a vector gather reads the operand at `clamp idx[e]`. -/
theorem vec_operandIdx_ix1 {w : Nat} (hN : 0 < N)
    (wf : GatherDims.WF ⟨1, ![N]⟩ ⟨2, ![E, 1]⟩ ⟨1, ![E]⟩ [] [0] [] [0] [] 1 ![1])
    (idx : IVec ⟨2, ![E, 1]⟩ w) (e : Fin E) :
    (vecDims N E wf).operandIdx (ix1 e) idx
      = ix1 (⟨min (idx (atRow e)).toInt.toNat (N - 1), Nat.lt_of_le_of_lt (Nat.min_le_right _ _) (by omega)⟩ : Fin N) := by
  funext a
  apply Fin.ext
  match a with
  | ⟨0, _⟩ => exact vec_operandIdx N E wf idx (ix1 e)

/-- The host's vector gather at `e` is the operand at `clamp idx[e]`: the position read signed and clamped into
    `[0, N − 1]`. -/
theorem gather_vec_apply {α : Type} {w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecDims N E wf) x idx (ix1 e)
      = x (ix1 (⟨min (idx (atRow e)).toInt.toNat (N - 1), Nat.lt_of_le_of_lt (Nat.min_le_right _ _) (by omega)⟩ : Fin N)) :=
  congrArg x (vec_operandIdx_ix1 N E hN wf idx e)

/-! ## Entries scattered at a column of positions -/

/-- The dimension numbers of an entry-wise scatter of `[E]` updates into `[N]` at `idx : [E, 1]`: no window axis, the
    operand's one axis inserted and indexed. -/
abbrev vecScatter (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Lands

variable {w : Nat} (wf : ScatterDims.WF ⟨1, ![N]⟩ ⟨2, ![E, 1]⟩ ⟨1, ![E]⟩ [] [0] [0] 1)
  (idx : IVec ⟨2, ![E, 1]⟩ w) (j : (⟨1, ![E]⟩ : Shape).Idx)

/-- The window starts at the position read signed. -/
theorem vecScatter_start :
    (vecScatter N E wf).start j idx 0 = (idx (atRow ⟨(j 0).val, (j 0).isLt⟩)).toInt := by
  unfold ScatterDims.start
  rw [dif_pos (show (0 : Fin 1) ∈ (vecScatter N E wf).scatterDimsToOperandDims from List.mem_singleton.mpr rfl)]
  have hsi : (vecScatter N E wf).siIdx j ⟨List.idxOf (0 : Fin 1) (vecScatter N E wf).scatterDimsToOperandDims,
      List.idxOf_lt_length_iff.2 (List.mem_singleton.mpr rfl)⟩ = atRow ⟨(j 0).val, (j 0).isLt⟩ := by
    funext b; refine Fin.ext ?_
    match b with
    | ⟨0, _⟩ => rfl
    | ⟨1, _⟩ => rfl
  exact congrArg (fun k => (idx k).toInt) hsi

/-- The one axis is inserted: no window coordinate. -/
theorem vecScatter_window : (vecScatter N E wf).window j 0 = 0 := by
  have hk : (0 : Fin 1) ∉ (vecScatter N E wf).sKept := by
    intro hmem
    have h2 : (0 : Fin 1) ∈ (List.finRange 1).filter (· ∉ ([0] : List (Fin 1))) := hmem
    simp at h2
  unfold ScatterDims.window
  rw [dif_neg hk]

/-- An update element `j = e` lands on `i = n` exactly when its position, read signed, is `n`. -/
theorem vecScatter_resultIdx?_eq_some_iff (i : (⟨1, ![N]⟩ : Shape).Idx) :
    (vecScatter N E wf).resultIdx? j idx = some i
      ↔ (idx (atRow ⟨(j 0).val, (j 0).isLt⟩)).toInt = ((i 0).val : Int) := by
  have hs0 := vecScatter_start N E wf idx j
  have hw0 := vecScatter_window N E wf j
  have hi0 : (i 0).val < N := (i 0).isLt
  unfold ScatterDims.resultIdx?
  split
  · rename_i hb
    constructor
    · intro h
      have h0 : ((vecScatter N E wf).start j idx 0 + ((vecScatter N E wf).window j 0 : Int)).toNat = (i 0).val :=
        congrArg (fun f => (f 0).val) (Option.some.inj h)
      have hb0 := (hb 0).1
      rw [hs0, hw0] at h0 hb0
      omega
    · intro h0
      refine congrArg some (funext fun a => Fin.ext ?_)
      match a with
      | ⟨0, _⟩ =>
        show ((vecScatter N E wf).start j idx 0 + ((vecScatter N E wf).window j 0 : Int)).toNat = (i 0).val
        rw [hs0, hw0, h0]; omega
  · rename_i hb
    constructor
    · intro h; exact absurd h (by simp)
    · intro h0
      refine absurd (fun a => ?_) hb
      match a with
      | ⟨0, _⟩ =>
        show 0 ≤ (vecScatter N E wf).start j idx 0 + ((vecScatter N E wf).window j 0 : Int)
          ∧ (vecScatter N E wf).start j idx 0 + ((vecScatter N E wf).window j 0 : Int) < (N : Int)
        rw [hs0, hw0, h0]; omega

end Lands

/-! ## The accumulating vector scatter as a segment sum -/

/-- On the extended reals the host's accumulating vector scatter is, at `n`, the operand there plus the sum of the
    updates `e` over the positions `e` sent to `n` (those whose position word, read signed, is `n`). -/
theorem hostScatterAdd_vec_apply {w : Nat} (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ w) (upd : (⟨1, ![E]⟩ : Shape).Idx → EReal)
    (n : Fin N) :
    Ideal.hostScatterAdd (vecScatter N E wf) x idx upd (ix1 n)
      = x (ix1 n) + ∑ e ∈ rowsTo E idx n.val, upd (ix1 e) := by
  unfold Ideal.hostScatterAdd rowsTo
  refine congrArg (x (ix1 n) + ·) ?_
  refine Finset.sum_bij' (fun j _ => (⟨(j 0).val, (j 0).isLt⟩ : Fin E)) (fun e _ => ix1 e) ?_ ?_ ?_ ?_ ?_
  · intro j hj
    have h := (vecScatter_resultIdx?_eq_some_iff N E wf idx j (ix1 n)).mp (Finset.mem_filter.mp hj).2
    exact Finset.mem_filter.mpr ⟨Finset.mem_univ _, h⟩
  · intro e he
    have h := (Finset.mem_filter.mp he).2
    exact Finset.mem_filter.mpr ⟨Finset.mem_univ _,
      (vecScatter_resultIdx?_eq_some_iff N E wf idx (ix1 e) (ix1 n)).mpr h⟩
  · intro j _
    funext a; apply Fin.ext
    match a with
    | ⟨0, _⟩ => rfl
  · intro e _
    rfl
  · intro j _
    refine congrArg upd ?_
    funext a; apply Fin.ext
    match a with
    | ⟨0, _⟩ => rfl

/-- The same for the host operation as a program prints it, `Host.scatterAdd` read on the extended reals. -/
theorem scatterAdd_vec_apply {φ : FTy} {w : Nat}
    (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (n : Fin N) :
    Host.scatterAdd (vecScatter N E wf) x idx upd (ix1 n)
      = x (ix1 n) + ∑ e ∈ rowsTo E idx n.val, upd (ix1 e) :=
  hostScatterAdd_vec_apply N E wf x idx upd n

/-! ## Two vectors laid end to end -/

section Concat
variable {α : Type} {a b c : Nat}

/-- Two vectors `x : [a]`, `y : [b]` laid end to end, at a position `p < a`: the first vector at `p`. -/
theorem concatenate_vec_apply_left (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (hp : p.val < a) :
    concatenate ⟨1, ![c]⟩ 0 [⟨⟨1, ![a]⟩, x⟩, ⟨⟨1, ![b]⟩, y⟩] h (ix1 p) = x (ix1 (⟨p.val, hp⟩ : Fin a)) := by
  refine concatenate_pair_apply_left 0 x y h (ix1 p) rfl (ix1 (⟨p.val, hp⟩ : Fin a)) fun d => ?_
  match d with
  | ⟨0, _⟩ => rfl

/-- Two vectors `x : [a]`, `y : [b]` laid end to end, at the position `a + q`: the second vector at `q`. -/
theorem concatenate_vec_apply_right (x : (⟨1, ![a]⟩ : Shape).Idx → α) (y : (⟨1, ![b]⟩ : Shape).Idx → α)
    (h : Shape.Concatenates [(⟨1, ![a]⟩ : Shape), ⟨1, ![b]⟩] ⟨1, ![c]⟩ 0) (p : Fin c) (q : Fin b)
    (hpq : p.val = a + q.val) :
    concatenate ⟨1, ![c]⟩ 0 [⟨⟨1, ![a]⟩, x⟩, ⟨⟨1, ![b]⟩, y⟩] h (ix1 p) = y (ix1 q) := by
  refine concatenate_pair_apply_right 0 x y h (ix1 p) rfl rfl (ix1 q) (fun d hd => ?_) ?_
  · match d with
    | ⟨0, _⟩ => exact absurd rfl hd
  · show q.val + a = p.val
    omega

end Concat

/-! ## A sum over a joined range, split at the joint -/

section Split
variable {M : Type*} [AddCommMonoid M] {a b c : Nat}

/-- A sum over `c = a + b` positions is the sum over the first `a` plus the sum over the last `b`. -/
theorem sum_fin_split (h : c = a + b) (f : Fin c → M) :
    ∑ i, f i = ∑ e : Fin a, f ⟨e.val, by omega⟩ + ∑ j : Fin b, f ⟨a + j.val, by omega⟩ := by
  subst h
  rw [Fin.sum_univ_add]
  rfl

/-- A filtered sum over `c = a + b` positions is the filtered sum over the first `a` plus the filtered sum over the
    last `b`. -/
theorem sum_filter_fin_split (h : c = a + b) (p : Fin c → Prop) [DecidablePred p] (f : Fin c → M) :
    ∑ i ∈ Finset.univ.filter p, f i
      = ∑ e ∈ Finset.univ.filter (fun e : Fin a => p ⟨e.val, by omega⟩), f ⟨e.val, by omega⟩
        + ∑ j ∈ Finset.univ.filter (fun j : Fin b => p ⟨a + j.val, by omega⟩), f ⟨a + j.val, by omega⟩ := by
  rw [Finset.sum_filter, sum_fin_split h, Finset.sum_filter, Finset.sum_filter]

end Split

end Idealize.ShloMosaic.RowIndex

end
-- ==== Proof.LibERealSum.lean ====
/-
  Two facts about the extended reals, for a sum of products that shares a factor.

  A finite sum of extended reals times a NONNEGATIVE REAL is the sum of the products: the extended reals are not a
  ring (`⊤ + ⊥ = ⊥` breaks distributivity in general), but a nonnegative finite factor distributes over any sum,
  infinite terms included.

  The guarded inverse square root `if 0 < x then x^(-1/2) else 0` is a nonnegative real at EVERY extended real `x`:
  at `⊤` the inverse square root is `0`, at a positive real it is `(√x)⁻¹`, and everywhere else the guard answers `0`.
-/
import Mathlib.Data.EReal.Operations
import Idealize.ShloMosaic.PureOps.Ideal

namespace Idealize.ShloMosaic.ERealSum

open Idealize.ShloMosaic

/-- A finite sum of extended reals times a nonnegative real is the sum of the products. -/
theorem sum_mul_coe {ι : Type*} (s : Finset ι) (f : ι → EReal) {r : ℝ} (hr : 0 ≤ r) :
    (∑ j ∈ s, f j) * (r : EReal) = ∑ j ∈ s, f j * (r : EReal) := by
  classical
  induction s using Finset.induction_on with
  | empty => simp
  | insert a s ha ih =>
    rw [Finset.sum_insert ha, Finset.sum_insert ha,
      EReal.right_distrib_of_nonneg_of_ne_top (EReal.coe_nonneg.mpr hr) (EReal.coe_ne_top r), ih]

/-- A sum of products `a · p` times a nonnegative real `D` is the sum of `a · (p · D)`: the factor is moved inside and
    regrouped. The terms may be infinite; `D` may not. -/
theorem sum_mul_assoc {ι : Type*} (s : Finset ι) (a p : ι → EReal) {D : EReal} (hD : ∃ r : ℝ, 0 ≤ r ∧ D = (r : EReal)) :
    (∑ j ∈ s, a j * p j) * D = ∑ j ∈ s, a j * (p j * D) := by
  obtain ⟨r, hr, rfl⟩ := hD
  rw [sum_mul_coe s _ hr]
  exact Finset.sum_congr rfl fun j _ => mul_assoc _ _ _

/-- `if 0 < x then rsqrt x else 0` is a nonnegative real whatever the extended real `x`. -/
theorem guarded_rsqrt_real (x : EReal) :
    ∃ r : ℝ, 0 ≤ r ∧ Scalar.select (Ideal.cmp .ogt x 0) (Ideal.rsqrt x) (0 : EReal) = (r : EReal) := by
  by_cases h : (0 : EReal) < x
  · have hc : Ideal.cmp .ogt x 0 = 1#1 := by simp [Ideal.cmp, h]
    rw [hc]
    show ∃ r : ℝ, 0 ≤ r ∧ Ideal.rsqrt x = (r : EReal)
    induction x using EReal.rec with
    | bot => exact absurd h (by simp)
    | top => exact ⟨0, le_rfl, by rw [EReal.coe_zero]; rfl⟩
    | coe y =>
      have hy : 0 < y := by exact_mod_cast h
      refine ⟨(Real.sqrt y)⁻¹, inv_nonneg.mpr (Real.sqrt_nonneg y), ?_⟩
      show (if y < 0 then (⊥ : EReal) else if y = 0 then ⊤ else (((Real.sqrt y)⁻¹ : ℝ) : EReal)) = _
      rw [if_neg (not_lt.mpr hy.le), if_neg hy.ne']
  · have hc : Ideal.cmp .ogt x 0 = 0#1 := by simp [Ideal.cmp, h]
    rw [hc]
    exact ⟨0, le_rfl, by simp [Scalar.select]⟩

/-- The two arrangements of a normalised aggregate. On the left every term `a · p` is summed (onto zero) and the sum
    scaled by `D`; on the right every term carries its own second factor `q`, which on the summed set is `D`. For a
    nonnegative real `D` the two agree, whatever the terms. -/
theorem scaled_sum_eq {ι : Type*} (s : Finset ι) (a p q : ι → EReal) {D : EReal}
    (hD : ∃ r : ℝ, 0 ≤ r ∧ D = (r : EReal)) (hq : ∀ j ∈ s, q j = D) :
    (0 + ∑ j ∈ s, a j * p j) * D = 0 + ∑ j ∈ s, a j * (p j * q j) := by
  rw [zero_add, zero_add, sum_mul_assoc s a p hD]
  exact Finset.sum_congr rfl fun j hj => by rw [hq j hj]

/-- The same for the host's accumulating scatter at one result element `i`: scattering the terms `a · p` onto an array
    that is zero at `i` and scaling what arrives by `D` is scattering the terms `a · (p · q)` onto such an array, when
    every update that lands on `i` has `q = D` and `D` is a nonnegative real. -/
theorem hostScatterAdd_scaled {s si su : Shape} (d : ScatterDims s si su) {w : Nat} (idx : IVec si w)
    (z z' : s.Idx → EReal) (a p q : su.Idx → EReal) (i : s.Idx) {D : EReal}
    (hz : z i = 0) (hz' : z' i = 0) (hD : ∃ r : ℝ, 0 ≤ r ∧ D = (r : EReal))
    (hq : ∀ j, d.resultIdx? j idx = some i → q j = D) :
    Ideal.hostScatterAdd d z idx (fun j => a j * p j) i * D
      = Ideal.hostScatterAdd d z' idx (fun j => a j * (p j * q j)) i := by
  unfold Ideal.hostScatterAdd
  show (z i + ∑ j ∈ _, a j * p j) * D = z' i + ∑ j ∈ _, a j * (p j * q j)
  rw [hz, hz']
  exact scaled_sum_eq _ a p q hD fun j hj => hq j (Finset.mem_filter.mp hj).2

end Idealize.ShloMosaic.ERealSum
-- ==== Proof.LibGcnLayer.lean ====
/-
  One graph-convolution aggregation, in its two arrangements, on the extended reals.

  Data: a feature matrix `h : [N, D]`, a per-node scale `dis : [N]`, and for each of `E` edges a source row number
  `rw e` (already wrapped) and a target row number `c e`.  A row number is used as the hosts' gather uses it —
  read signed and clamped into `[0, N − 1]` — and as the accumulating scatter uses it — an edge whose target,
  read signed, is not a row is dropped.

  * scale first:  `out (n, d) = dis n · Σ_{e : c e = n} (h (rw e, d) · dis (rw e))`
    (the features are scaled by `dis`, gathered, summed per target, and the sums scaled by `dis` again);
  * weigh the edges:  `out (n, d) = Σ_{e : c e = n} h (rw e, d) · (dis (rw e) · dis (cw e))`
    (each gathered row is weighted by the product of the two ends' scales, `cw e` the wrapped target).

  On the summed set the target's scale is the constant `dis n` (an in-range row number survives the wrap and the
  clamp), so the two agree as soon as that factor may be moved across the sum: it is a nonnegative real.  The
  terms themselves may be infinite.  Stated for any extents `N`, `D`, `E`, over the hosts' row gather, vector gather
  and accumulating row scatter; it builds on the row-gather / segment-sum lemmas, the vector-gather lemma and the
  nonnegative-factor law for sums of extended reals, which it imports.
-/
import proofs.«174791_j9740985827608_2_alg».proof.Proof.LibRowScatterSum
import proofs.«174791_j9740985827608_2_alg».proof.Proof.LibVecIndex
import proofs.«174791_j9740985827608_2_alg».proof.Proof.LibERealSum

noncomputable section

namespace Cert.Gcn

open Idealize.ShloMosaic Idealize.ShloMosaic.ValueIdx Idealize.ShloMosaic.RowIndex

variable (N D E : Nat)

/-- A vector of extended reals all of whose entries are nonnegative reals. -/
def NonnegReal {s : Shape} (v : s.Idx → EReal) : Prop := ∀ i, ∃ r : ℝ, 0 ≤ r ∧ v i = (r : EReal)

/-- The wrapped form of a column of row numbers: a negative one has `off` added. -/
def IsWrapOf (off : BitVec 32) (cw c : IVec ⟨1, ![E]⟩ 32) : Prop :=
  ∀ e : Fin E, cw (ix1 e) = Scalar.select (IntOp.cmpi .slt (c (ix1 e)) 0#32) (IntOp.addi (c (ix1 e)) off) (c (ix1 e))

/-- The row a gather reads for edge `e`: the row number read signed, clamped into `[0, N − 1]`. -/
def rowOf (hN : 0 < N) (v : IVec ⟨1, ![E]⟩ 32) (e : Fin E) : Fin N :=
  ⟨min (v (ix1 e)).toInt.toNat (N - 1), Nat.lt_of_le_of_lt (Nat.min_le_right _ _) (by omega)⟩

section
variable (hN : 0 < N)
  (gwf : GatherDims.WF ⟨2, ![N, D]⟩ ⟨2, ![E, 1]⟩ ⟨2, ![E, D]⟩ [1] [0] [] [0] [] 1 ![1, D])
  (swf : ScatterDims.WF ⟨2, ![N, D]⟩ ⟨2, ![E, 1]⟩ ⟨2, ![E, D]⟩ [1] [0] [0] 1)
  (vwf : GatherDims.WF ⟨1, ![N]⟩ ⟨2, ![E, 1]⟩ ⟨1, ![E]⟩ [] [0] [] [0] [] 1 ![1])
  (hb1 : (⟨1, ![N]⟩ : Shape).BroadcastsInDim ⟨2, ![N, 1]⟩ (![0] : Fin 1 → Fin 2))
  (hb2 : (⟨2, ![N, 1]⟩ : Shape).BroadcastsInDim ⟨2, ![N, D]⟩ (![0, 1] : Fin 2 → Fin 2))
  (hbE : (⟨1, ![E]⟩ : Shape).BroadcastsInDim ⟨2, ![E, 1]⟩ (![0] : Fin 1 → Fin 2))
  (hbED : (⟨2, ![E, 1]⟩ : Shape).BroadcastsInDim ⟨2, ![E, D]⟩ (![0, 1] : Fin 2 → Fin 2))

/-- The per-node scale spread over the columns of `[N, D]`. -/
def spread (dis : FVec Ideal ⟨1, ![N]⟩ .f32) : FVec Ideal ⟨2, ![N, D]⟩ .f32 :=
  broadcastInDim ⟨2, ![N, D]⟩ (![0, 1] : Fin 2 → Fin 2) hb2 (broadcastInDim ⟨2, ![N, 1]⟩ (![0] : Fin 1 → Fin 2) hb1 dis)

/-- A vector of row numbers as the column `[E, 1]` the gather and the scatter take. -/
def col (v : IVec ⟨1, ![E]⟩ 32) : IVec ⟨2, ![E, 1]⟩ 32 :=
  broadcastInDim ⟨2, ![E, 1]⟩ (![0] : Fin 1 → Fin 2) hbE v

/-- Scale first: scale, gather, sum per target onto `z`, scale again. -/
def scaleFirst (z h : FVec Ideal ⟨2, ![N, D]⟩ .f32) (dis : FVec Ideal ⟨1, ![N]⟩ .f32) (rw c : IVec ⟨1, ![E]⟩ 32) :
    FVec Ideal ⟨2, ![N, D]⟩ .f32 :=
  mulf (spread N D hb1 hb2 dis)
    (Host.scatterAdd (rowScatter N D E swf) z (col E hbE c)
      (Host.gather (rowsDims N D E gwf) (mulf h (spread N D hb1 hb2 dis)) (col E hbE rw)))

/-- Weigh the edges: gather, weigh each row by the product of its two ends' scales, sum per target onto `z`. -/
def weighEdges (z h : FVec Ideal ⟨2, ![N, D]⟩ .f32) (dis : FVec Ideal ⟨1, ![N]⟩ .f32) (rw cw c : IVec ⟨1, ![E]⟩ 32) :
    FVec Ideal ⟨2, ![N, D]⟩ .f32 :=
  Host.scatterAdd (rowScatter N D E swf) z (col E hbE c)
    (mulf (Host.gather (rowsDims N D E gwf) h (col E hbE rw))
      (broadcastInDim ⟨2, ![E, D]⟩ (![0, 1] : Fin 2 → Fin 2) hbED
        (broadcastInDim ⟨2, ![E, 1]⟩ (![0] : Fin 1 → Fin 2) hbE
          (mulf (Host.gather (vecDims N E vwf) dis (col E hbE rw)) (Host.gather (vecDims N E vwf) dis (col E hbE cw))))))

theorem col_atRow (v : IVec ⟨1, ![E]⟩ 32) (e : Fin E) : col E hbE v (atRow e) = v (ix1 e) :=
  broadcastInDim_a_a1_apply v hbE e _

theorem spread_apply (dis : FVec Ideal ⟨1, ![N]⟩ .f32) (n : Fin N) (d : Fin D) :
    spread N D hb1 hb2 dis (ix2 n d) = dis (ix1 n) :=
  broadcastInDim_column_apply dis hb1 hb2 n d

/-- Scale first, read at `(n, d)`. -/
theorem scaleFirst_apply (z h : FVec Ideal ⟨2, ![N, D]⟩ .f32) (dis : FVec Ideal ⟨1, ![N]⟩ .f32)
    (rw c : IVec ⟨1, ![E]⟩ 32) (n : Fin N) (d : Fin D) :
    scaleFirst N D E gwf swf hb1 hb2 hbE z h dis rw c (ix2 n d)
      = (z (ix2 n d) + ∑ e ∈ rowsTo E (col E hbE c) n.val,
          h (ix2 (rowOf N E hN rw e) d) * dis (ix1 (rowOf N E hN rw e))) * dis (ix1 n) := by
  unfold scaleFirst
  show spread N D hb1 hb2 dis (ix2 n d) * Host.scatterAdd (rowScatter N D E swf) z (col E hbE c) _ (ix2 n d) = _
  rw [spread_apply, scatterAdd_rows_apply, mul_comm]
  refine congrArg (fun S => (z (ix2 n d) + S) * dis (ix1 n)) (Finset.sum_congr rfl fun e _ => ?_)
  rw [gather_rows_apply N D E hN gwf, col_atRow]
  show h (ix2 _ d) * spread N D hb1 hb2 dis (ix2 _ d) = _
  rw [spread_apply]
  rfl

/-- Weigh the edges, read at `(n, d)`. -/
theorem weighEdges_apply (z h : FVec Ideal ⟨2, ![N, D]⟩ .f32) (dis : FVec Ideal ⟨1, ![N]⟩ .f32)
    (rw cw c : IVec ⟨1, ![E]⟩ 32) (n : Fin N) (d : Fin D) :
    weighEdges N D E gwf swf vwf hbE hbED z h dis rw cw c (ix2 n d)
      = z (ix2 n d) + ∑ e ∈ rowsTo E (col E hbE c) n.val,
          h (ix2 (rowOf N E hN rw e) d) * (dis (ix1 (rowOf N E hN rw e)) * dis (ix1 (rowOf N E hN cw e))) := by
  unfold weighEdges
  rw [scatterAdd_rows_apply]
  refine congrArg (z (ix2 n d) + ·) (Finset.sum_congr rfl fun e _ => ?_)
  show Host.gather (rowsDims N D E gwf) h (col E hbE rw) (ix2 e d) * broadcastInDim _ _ hbED _ (ix2 e d) = _
  rw [gather_rows_apply N D E hN gwf, col_atRow, broadcastInDim_column_apply _ hbE hbED e d]
  show _ * (Host.gather (vecDims N E vwf) dis (col E hbE rw) (ix1 e) * Host.gather (vecDims N E vwf) dis (col E hbE cw) (ix1 e)) = _
  rw [gather_vec_apply N E hN vwf, gather_vec_apply N E hN vwf, col_atRow, col_atRow]
  rfl

include hN in
/-- The two arrangements agree when the scale is a nonnegative real at every node and both sums start from zero. -/
theorem scaleFirst_eq_weighEdges (off : BitVec 32) (z z' h : FVec Ideal ⟨2, ![N, D]⟩ .f32)
    (dis : FVec Ideal ⟨1, ![N]⟩ .f32) (rw cw c : IVec ⟨1, ![E]⟩ 32)
    (hz : ∀ i, z i = 0) (hz' : ∀ i, z' i = 0) (hdis : NonnegReal dis) (hcw : IsWrapOf E off cw c) :
    scaleFirst N D E gwf swf hb1 hb2 hbE z h dis rw c = weighEdges N D E gwf swf vwf hbE hbED z' h dis rw cw c := by
  funext i
  obtain ⟨n, d, rfl⟩ : ∃ (n : Fin N) (d : Fin D), i = ix2 n d := ⟨i 0, i 1, eq_ix2 i⟩
  rw [scaleFirst_apply N D E hN, weighEdges_apply N D E hN, hz, hz']
  refine ERealSum.scaled_sum_eq _ _ _ _ (hdis (ix1 n)) fun e he => ?_
  have hto : (c (ix1 e)).toInt = (n.val : Int) := by
    have := (Finset.mem_filter.mp he).2
    rwa [col_atRow] at this
  have hrow : rowOf N E hN cw e = n := by
    apply Fin.ext
    show min (cw (ix1 e)).toInt.toNat (N - 1) = n.val
    rw [hcw e]
    exact wrap_clamp_of_toInt_eq (c (ix1 e)) off n.val n.isLt hto
  rw [hrow]

end

end Cert.Gcn

end
-- ==== Proof.LibDisScale.lean ====
/-
  The per-node scale of a normalised graph convolution, `dis = if deg > 0 then deg ^ (−1/2) else 0`, on the
  extended reals: whatever extended real the degree is, the scale is a nonnegative real — a positive real degree
  gives the positive real `deg ^ (−1/2)`, an infinite one gives `0` (the power of `+∞` to a negative exponent),
  and every other degree is sent to `0` by the guard.  Also the three float patterns the programs spell
  (`0.0`, `−0.5`, `1.0`) as the numbers they denote.
-/
import Idealize.ShloMosaic.PureOps.Ideal

noncomputable section

namespace Cert.DisScale

open Idealize.ShloMosaic

/-- `+0.0` denotes `0`. -/
theorem ofBits_zero : Ideal.ofBits .f32 0x00000000#32 = 0 := by
  simp [Ideal.ofBits, Ideal.ieee]

/-- `−0.5` denotes the real `−1/2`. -/
theorem ofBits_neg_half : Ideal.ofBits .f32 0xBF000000#32 = ((-(1 / 2) : ℝ) : EReal) := by
  simp [Ideal.ofBits, Ideal.ieee, -EReal.coe_mul]; norm_num

/-- `if 0 < x then x ^ (−1/2) else 0` is a nonnegative real whatever the extended real `x`. -/
theorem guarded_pow_real (x : EReal) :
    ∃ r : ℝ, 0 ≤ r ∧ Scalar.select (Ideal.cmp .ogt x 0) (Ideal.pow x ((-(1 / 2) : ℝ) : EReal)) (0 : EReal) = (r : EReal) := by
  by_cases h : (0 : EReal) < x
  · have hc : Ideal.cmp .ogt x 0 = 1#1 := by simp [Ideal.cmp, h]
    rw [hc]
    show ∃ r : ℝ, 0 ≤ r ∧ Ideal.pow x ((-(1 / 2) : ℝ) : EReal) = (r : EReal)
    induction x using EReal.rec with
    | bot => exact absurd h (by simp)
    | top =>
      refine ⟨0, le_rfl, ?_⟩
      rw [Ideal.pow_top, if_neg (by norm_num), if_neg (by norm_num), EReal.coe_zero]
    | coe y =>
      have hy : 0 < y := by exact_mod_cast h
      exact ⟨Real.rpow y (-(1 / 2)), Real.rpow_nonneg hy.le _, rfl⟩
  · have hc : Ideal.cmp .ogt x 0 = 0#1 := by simp [Ideal.cmp, h]
    rw [hc]
    exact ⟨0, le_rfl, by simp [Scalar.select]⟩

/-- The scale vector as the programs compute it — a guard `deg > z₀`, the power `deg ^ e`, a fallback `z₁`, with
    `z₀ = z₁ = 0` and `e = −1/2` at every entry — has nonnegative real entries. -/
theorem guarded_pow_vec {s : Shape} (deg z0 e z1 : FVec Ideal s .f32) (hz0 : ∀ i, z0 i = 0)
    (he : ∀ i, e i = ((-(1 / 2) : ℝ) : EReal)) (hz1 : ∀ i, z1 i = 0) (i : s.Idx) :
    ∃ r : ℝ, 0 ≤ r ∧ select (cmpf .ogt deg z0) (Host.powf deg e) z1 i = (r : EReal) := by
  show ∃ r : ℝ, 0 ≤ r ∧ Scalar.select (Ideal.cmp .ogt (deg i) (z0 i)) (Ideal.pow (deg i) (e i)) (z1 i) = (r : EReal)
  rw [hz0, he, hz1]
  exact guarded_pow_real (deg i)

end Cert.DisScale

end
-- ==== Proof.RefNet.lean ====
/-
  What the reference computes, stage by stage, on the extended reals.

  The reference's 144 host operations are read in three stages:
  * the first 26 build the edge lists with their self-loops (`rows`, `cols`) and the scale `dis` of the nodes;
  * the next 108 are the two graph-convolution layers — each weighs every gathered row by the product of its two ends'
    scales and sums per target node —, the rectifier between them, and the two linear heads `mu` and `logvar`; the second
    layer recomputes the edge lists and the scale from the same data, so they are the first layer's;
  * the last 10 are `1 / (1 + exp (−mu · muᵀ))`.
-/
import proofs.«174791_j9740985827608_2_alg».proof.Proof.RefRun
import proofs.«174791_j9740985827608_2_alg».proof.Proof.LibReadThrough
import proofs.«174791_j9740985827608_2_alg».proof.Proof.LibMatmul
import proofs.«174791_j9740985827608_2_alg».proof.Proof.LibFoldStages
import proofs.«174791_j9740985827608_2_alg».proof.Proof.LibGcnLayer
import proofs.«174791_j9740985827608_2_alg».proof.Proof.LibDisScale
import proofs.«174791_j9740985827608_2_alg».proof.Proof.AdjSpec
import Idealize.ShloMosaic.Lib.Pipeline.Value
import Idealize.ShloMosaic.PureOps.Ideal

set_option maxRecDepth 16384

noncomputable section

namespace Cert.ReferenceIdeal.Net

open Idealize.ShloMosaic Idealize.ShloMosaic.TcCoe Idealize.SL.Sem Idealize.ShloMosaic.StableHlo
open Idealize.ShloMosaic.ValueIdx
open Cert.ReferenceIdeal Cert.ReferenceIdeal.RunP Cert.ReferenceIdeal.Facts₀

/-! ## The pieces -/

/-- An edge list with the 8192 self-loops appended. -/
def selfLoops (v : IVec S270336 32) : IVec S278528 32 :=
  concatenate S278528 0 [⟨S270336, v⟩, ⟨S8192, iotaInDim S8192 32 0⟩] concatenates_S270336_S8192_S278528_d0

/-- A row number as jnp indexes with it: a negative one has 8192 added. -/
def wrapIdx (r : IVec S278528 32) : IVec S278528 32 :=
  select (cmpi .slt r (broadcastInDim S278528 ![] bcast_S_S278528 (constantI S_ 32 0#32)))
    (addi r (broadcastInDim S278528 ![] bcast_S_S278528 (constantI S_ 32 8192#32))) r

/-- The nodes' in-degrees: one per edge, summed per target. -/
def degT (c : IVec S278528 32) : FVec Ideal S8192 .f32 :=
  Host.scatterAdd scatter_S8192_S278528x1_S278528_n_0_0_1
    (broadcastInDim S8192 ![] bcast_S_S8192 (constant S_ .f32 0x00000000#32))
    (broadcastInDim S278528x1 ![0] bcast_S278528_S278528x1_0 c)
    (broadcastInDim S278528 ![] bcast_S_S278528 (constant S_ .f32 0x3F800000#32))

/-- The nodes' scale: `deg ^ (−1/2)` where the degree is positive, else `0`. -/
def disT (c : IVec S278528 32) : FVec Ideal S8192 .f32 :=
  select (cmpf .ogt (degT c) (broadcastInDim S8192 ![] bcast_S_S8192 (constant S_ .f32 0x00000000#32)))
    (Host.powf (degT c) (broadcastInDim S8192 ![] bcast_S_S8192 (constant S_ .f32 0xBF000000#32)))
    (broadcastInDim S8192 ![] bcast_S_S8192 (id (constant S_ .f32 0x00000000#32)))

/-- The scale is a nonnegative real at every node, whatever the edges. -/
theorem nonneg_disT (c : IVec S278528 32) : Gcn.NonnegReal (disT c) := fun i =>
  DisScale.guarded_pow_vec (degT c) _ _ _ (fun _ => DisScale.ofBits_zero) (fun _ => DisScale.ofBits_neg_half)
    (fun _ => DisScale.ofBits_zero) i

/-- A bias vector added to every row. -/
def bias256 (b : FVec Ideal S256 .f32) : FVec Ideal S8192x256 .f32 :=
  broadcastInDim S8192x256 ![0, 1] bcast_S1x256_S8192x256_0_1 (broadcastInDim S1x256 ![1] bcast_S256_S1x256_1 b)
def bias128 (b : FVec Ideal S128 .f32) : FVec Ideal S8192x128 .f32 :=
  broadcastInDim S8192x128 ![0, 1] bcast_S1x128_S8192x128_0_1 (broadcastInDim S1x128 ![1] bcast_S128_S1x128_1 b)

/-- The first layer: `x · W1`, aggregated edge by edge, plus the bias. -/
def layer1 (x : FVec Ideal S8192x512 .f32) (W1 : FVec Ideal S512x256 .f32) (b1 : FVec Ideal S256 .f32)
    (dis : FVec Ideal S8192 .f32) (r c : IVec S278528 32) : FVec Ideal S8192x256 .f32 :=
  addf (Gcn.weighEdges 8192 256 278528 gather_S8192x256_S278528x1_S278528x256_1_0_n_n_0_1_1256_wf
      scatter_S8192x256_S278528x1_S278528x256_1_0_0_1_wf gather_S8192_S278528x1_S278528_n_0_n_n_0_1_1_wf
      bcast_S278528_S278528x1_0 bcast_S278528x1_S278528x256_0_1
      (broadcastInDim S8192x256 ![] bcast_S_S8192x256 (constant S_ .f32 0x00000000#32))
      (Host.dotGeneral dot_S8192x512_S512x256_S8192x256_1_0_0_1_n_n none x W1) dis (wrapIdx r) (wrapIdx c) c)
    (bias256 b1)

/-- The rectifier. -/
def relu (z : FVec Ideal S8192x256 .f32) : FVec Ideal S8192x256 .f32 :=
  maximumf z (broadcastInDim S8192x256 ![] bcast_S_S8192x256 (constant S_ .f32 0x00000000#32))

/-- The second layer: `z · W2`, aggregated edge by edge, plus the bias. -/
def layer2 (z : FVec Ideal S8192x256 .f32) (W2 : FVec Ideal S256x128 .f32) (b2 : FVec Ideal S128 .f32)
    (dis : FVec Ideal S8192 .f32) (r c : IVec S278528 32) : FVec Ideal S8192x128 .f32 :=
  addf (Gcn.weighEdges 8192 128 278528 gather_S8192x128_S278528x1_S278528x128_1_0_n_n_0_1_1128_wf
      scatter_S8192x128_S278528x1_S278528x128_1_0_0_1_wf gather_S8192_S278528x1_S278528_n_0_n_n_0_1_1_wf
      bcast_S278528_S278528x1_0 bcast_S278528x1_S278528x128_0_1
      (broadcastInDim S8192x128 ![] bcast_S_S8192x128 (constant S_ .f32 0x00000000#32))
      (Host.dotGeneral dot_S8192x256_S256x128_S8192x128_1_0_0_1_n_n none z W2) dis (wrapIdx r) (wrapIdx c) c)
    (bias128 b2)

/-- A linear head: `z · W + b`. -/
def head (z : FVec Ideal S8192x128 .f32) (W : FVec Ideal S128x128 .f32) (b : FVec Ideal S128 .f32) : FVec Ideal S8192x128 .f32 :=
  addf (Host.dotGeneral dot_S8192x128_S128x128_S8192x128_1_0_0_1_n_n none z W) (bias128 b)

/-- Both layers with one edge list and one scale. -/
def encode (x : FVec Ideal S8192x512 .f32) (W1 : FVec Ideal S512x256 .f32) (b1 : FVec Ideal S256 .f32)
    (W2 : FVec Ideal S256x128 .f32) (b2 : FVec Ideal S128 .f32) (dis : FVec Ideal S8192 .f32) (r c : IVec S278528 32) :
    FVec Ideal S8192x128 .f32 :=
  layer2 (relu (layer1 x W1 b1 dis r c)) W2 b2 dis r c

/-- The decoder as the reference spells it: `1 / (1 + exp (−mu · muᵀ))`. -/
def adjT (mu : FVec Ideal S8192x128 .f32) : FVec Ideal S8192x8192 .f32 :=
  Host.divf (broadcastInDim S8192x8192 ![] bcast_S_S8192x8192 (constant S_ .f32 0x3F800000#32))
    (addf (broadcastInDim S8192x8192 ![] bcast_S_S8192x8192 (constant S_ .f32 0x3F800000#32))
      (Host.exp (Host.negf (Host.dotGeneral dot_S8192x128_S128x8192_S8192x8192_1_0_0_1_n_n none mu
        (transpose S128x8192 [1, 0] mu transposes_S8192x128_S128x8192_1_0)))))

/-! ## The stages -/

/-- The edge lists and the scale: the first 26 operations. -/
abbrev opsA : List (HloOp τ sig (Elt Ideal)) := (ops (F := Ideal)).take 26
/-- The layers and the heads: the next 108. -/
abbrev opsB : List (HloOp τ sig (Elt Ideal)) := ((ops (F := Ideal)).drop 26).take 108
/-- The decoder: the last 10. -/
abbrev opsC : List (HloOp τ sig (Elt Ideal)) := (ops (F := Ideal)).drop 134

theorem after_ops (V : Valuation τ sig (Elt Ideal)) : after (ops (F := Ideal)) V = after opsC (after opsB (after opsA V)) :=
  FoldStages.after_cut ops 26 108 V

section A
variable (V : Valuation τ sig (Elt Ideal))

theorem A_rows : after opsA V (Proc.devRef .tc main_v8) = selfLoops (after opsA V (Proc.devRef .tc main_v3)) := by
  simp only [opsA, ops, List.take_succ_cons, List.take_zero]
  after_results_through
  rfl

theorem A_cols : after opsA V (Proc.devRef .tc main_v9) = selfLoops (after opsA V (Proc.devRef .tc main_v6)) := by
  simp only [opsA, ops, List.take_succ_cons, List.take_zero]
  after_results_through
  rfl

theorem A_dis : after opsA V (Proc.devRef .tc main_v18) = disT (after opsA V (Proc.devRef .tc main_v9)) := by
  simp only [opsA, ops, List.take_succ_cons, List.take_zero]
  after_results_through
  unfold disT degT
  simp only [TRef.toBuf, TRef.ofBuf, cast_eq]

/-! No operation of the first stage writes an argument. -/
theorem A_arg0 : after opsA V (Proc.devRef .tc main_arg0) = V (Proc.devRef .tc main_arg0) := by
  simp only [opsA, ops, List.take_succ_cons, List.take_zero]
  after_results_through
theorem A_arg2 : after opsA V (Proc.devRef .tc main_arg2) = V (Proc.devRef .tc main_arg2) := by
  simp only [opsA, ops, List.take_succ_cons, List.take_zero]
  after_results_through
theorem A_arg3 : after opsA V (Proc.devRef .tc main_arg3) = V (Proc.devRef .tc main_arg3) := by
  simp only [opsA, ops, List.take_succ_cons, List.take_zero]
  after_results_through
theorem A_arg4 : after opsA V (Proc.devRef .tc main_arg4) = V (Proc.devRef .tc main_arg4) := by
  simp only [opsA, ops, List.take_succ_cons, List.take_zero]
  after_results_through
theorem A_arg5 : after opsA V (Proc.devRef .tc main_arg5) = V (Proc.devRef .tc main_arg5) := by
  simp only [opsA, ops, List.take_succ_cons, List.take_zero]
  after_results_through
theorem A_arg6 : after opsA V (Proc.devRef .tc main_arg6) = V (Proc.devRef .tc main_arg6) := by
  simp only [opsA, ops, List.take_succ_cons, List.take_zero]
  after_results_through
theorem A_arg7 : after opsA V (Proc.devRef .tc main_arg7) = V (Proc.devRef .tc main_arg7) := by
  simp only [opsA, ops, List.take_succ_cons, List.take_zero]
  after_results_through
theorem A_arg8 : after opsA V (Proc.devRef .tc main_arg8) = V (Proc.devRef .tc main_arg8) := by
  simp only [opsA, ops, List.take_succ_cons, List.take_zero]
  after_results_through
theorem A_arg9 : after opsA V (Proc.devRef .tc main_arg9) = V (Proc.devRef .tc main_arg9) := by
  simp only [opsA, ops, List.take_succ_cons, List.take_zero]
  after_results_through

end A

section B
variable (V : Valuation τ sig (Elt Ideal))

set_option maxHeartbeats 4000000 in
/-- `mu` after the second stage: the second layer is given the edge lists and the scale as it recomputes them. -/
theorem B_mu : after opsB V (Proc.devRef .tc main_v99)
    = head (layer2 (relu (layer1 (V (Proc.devRef .tc main_arg0)) (V (Proc.devRef .tc main_arg2)) (V (Proc.devRef .tc main_arg3))
          (V (Proc.devRef .tc main_v18)) (V (Proc.devRef .tc main_v8)) (V (Proc.devRef .tc main_v9))))
        (V (Proc.devRef .tc main_arg4)) (V (Proc.devRef .tc main_arg5)) (disT (selfLoops (V (Proc.devRef .tc main_v6))))
        (selfLoops (V (Proc.devRef .tc main_v3))) (selfLoops (V (Proc.devRef .tc main_v6))))
      (V (Proc.devRef .tc main_arg6)) (V (Proc.devRef .tc main_arg7)) := by
  simp only [opsB, ops, List.drop_succ_cons, List.drop_zero, List.take_succ_cons, List.take_zero]
  after_results_through
  unfold head layer2 relu layer1 disT degT
  simp only [TRef.toBuf, TRef.ofBuf, cast_eq]
  rfl

set_option maxHeartbeats 4000000 in
theorem B_lv : after opsB V (Proc.devRef .tc main_v103)
    = head (layer2 (relu (layer1 (V (Proc.devRef .tc main_arg0)) (V (Proc.devRef .tc main_arg2)) (V (Proc.devRef .tc main_arg3))
          (V (Proc.devRef .tc main_v18)) (V (Proc.devRef .tc main_v8)) (V (Proc.devRef .tc main_v9))))
        (V (Proc.devRef .tc main_arg4)) (V (Proc.devRef .tc main_arg5)) (disT (selfLoops (V (Proc.devRef .tc main_v6))))
        (selfLoops (V (Proc.devRef .tc main_v3))) (selfLoops (V (Proc.devRef .tc main_v6))))
      (V (Proc.devRef .tc main_arg8)) (V (Proc.devRef .tc main_arg9)) := by
  simp only [opsB, ops, List.drop_succ_cons, List.drop_zero, List.take_succ_cons, List.take_zero]
  after_results_through
  unfold head layer2 relu layer1 disT degT
  simp only [TRef.toBuf, TRef.ofBuf, cast_eq]
  rfl

end B

section C
variable (V : Valuation τ sig (Elt Ideal))

theorem C_adj : after opsC V (Proc.devRef .tc main_v111) = adjT (V (Proc.devRef .tc main_v99)) := by
  simp only [opsC, ops, List.drop_succ_cons, List.drop_zero]
  after_results_through
  rfl

theorem C_mu : after opsC V (Proc.devRef .tc main_v99) = V (Proc.devRef .tc main_v99) := by
  simp only [opsC, ops, List.drop_succ_cons, List.drop_zero]
  after_results_through

theorem C_lv : after opsC V (Proc.devRef .tc main_v103) = V (Proc.devRef .tc main_v103) := by
  simp only [opsC, ops, List.drop_succ_cons, List.drop_zero]
  after_results_through

end C

/-! ## The reference as a whole -/

section All
variable (V : Valuation τ sig (Elt Ideal))

/-- `mu`: both layers over ONE edge list and ONE scale (the second layer's own copies are the first's). -/
theorem R_mu : after (ops (F := Ideal)) V (Proc.devRef .tc main_v99)
    = head (encode (V (Proc.devRef .tc main_arg0)) (V (Proc.devRef .tc main_arg2)) (V (Proc.devRef .tc main_arg3))
        (V (Proc.devRef .tc main_arg4)) (V (Proc.devRef .tc main_arg5)) (disT (after opsA V (Proc.devRef .tc main_v9)))
        (after opsA V (Proc.devRef .tc main_v8)) (after opsA V (Proc.devRef .tc main_v9)))
      (V (Proc.devRef .tc main_arg6)) (V (Proc.devRef .tc main_arg7)) := by
  rw [after_ops, C_mu, B_mu, A_dis, ← A_rows, ← A_cols, A_arg0, A_arg2, A_arg3, A_arg4, A_arg5, A_arg6, A_arg7]
  rfl

theorem R_lv : after (ops (F := Ideal)) V (Proc.devRef .tc main_v103)
    = head (encode (V (Proc.devRef .tc main_arg0)) (V (Proc.devRef .tc main_arg2)) (V (Proc.devRef .tc main_arg3))
        (V (Proc.devRef .tc main_arg4)) (V (Proc.devRef .tc main_arg5)) (disT (after opsA V (Proc.devRef .tc main_v9)))
        (after opsA V (Proc.devRef .tc main_v8)) (after opsA V (Proc.devRef .tc main_v9)))
      (V (Proc.devRef .tc main_arg8)) (V (Proc.devRef .tc main_arg9)) := by
  rw [after_ops, C_lv, B_lv, A_dis, ← A_rows, ← A_cols, A_arg0, A_arg2, A_arg3, A_arg4, A_arg5, A_arg8, A_arg9]
  rfl

/-- The decoder reads the `mu` the reference returns. -/
theorem R_adj : after (ops (F := Ideal)) V (Proc.devRef .tc main_v111) = adjT (after (ops (F := Ideal)) V (Proc.devRef .tc main_v99)) := by
  rw [after_ops, C_adj, C_mu]

end All

end Cert.ReferenceIdeal.Net

end
-- ==== Proof.RefAdj.lean ====
/-
  The reference's decoder is the adjacency specification: entry `(I, J)` of `1 / (1 + exp (−mu · muᵀ))`, the host's
  quotient of the constant `1` by `1 + exp (−Σ_k mu (I, k) · muᵀ (k, J))` with `muᵀ (k, J) = mu (J, k)`, is the logistic
  function of `Σ_k mu (I, k) · mu (J, k)` — the logistic function on the extended reals IS `1 / (1 + exp (−x))` with the
  quotient's and the exponential's values at the infinities.
-/
import proofs.«174791_j9740985827608_2_alg».proof.Proof.RefNet

set_option maxRecDepth 16384

noncomputable section

namespace Cert.ReferenceIdeal.NetAdj

open Idealize.ShloMosaic Idealize.ShloMosaic.ValueIdx
open Cert.ReferenceIdeal Cert.ReferenceIdeal.Facts₀
open scoped BigOperators

/-- The word `0x3F800000` denotes `1`. -/
theorem ofBits_one : Ideal.ofBits .f32 0x3F800000#32 = 1 := by
  simp [Ideal.ofBits, Ideal.ieee, -EReal.coe_mul]; norm_num

/-- The transpose of `mu` reads it with the coordinates exchanged. -/
theorem transpose_ix2 (mu : FVec Ideal S8192x128 .f32) (h : S8192x128.Transposes [1, 0] S128x8192) (k : Fin 128) (J : Fin 8192) :
    transpose S128x8192 [1, 0] mu h (ix2 k J) = mu (ix2 J k) :=
  transpose_apply [1, 0] mu h (ix2 k J) (ix2 J k) fun b => by
    match b with
    | ⟨0, _⟩ => rfl
    | ⟨1, _⟩ => rfl

/-- The logistic function as the host spells it: the quotient of `1` by `1 + exp (−x)`. -/
theorem host_logistic (x : EReal) :
    FloatOps.hostDivf (F := Ideal) (φ := .f32) 1 (FloatOps.addf (F := Ideal) (φ := .f32) 1 (FloatOps.hostUnary (F := Ideal) (φ := .f32) .exp (FloatOps.hostNegf (F := Ideal) (φ := .f32) x)))
      = Ideal.logistic x := rfl

/-- Entry `(I, J)` of the reference's decoder. -/
theorem adjT_apply (mu : FVec Ideal S8192x128 .f32) (I J : Fin 8192) :
    Cert.ReferenceIdeal.Net.adjT mu (ix2 I J) = Cert.Adj.entry mu I J := by
  unfold Cert.ReferenceIdeal.Net.adjT Cert.Adj.entry
  show FloatOps.hostDivf (F := Ideal) (φ := .f32) (Ideal.ofBits .f32 0x3F800000#32)
      (FloatOps.addf (F := Ideal) (φ := .f32) (Ideal.ofBits .f32 0x3F800000#32)
        (FloatOps.hostUnary (F := Ideal) (φ := .f32) .exp (FloatOps.hostNegf (F := Ideal) (φ := .f32)
          (FloatOps.dotGeneral dot_S8192x128_S128x8192_S8192x8192_1_0_0_1_n_n none .single mu
            (transpose S128x8192 [1, 0] mu transposes_S8192x128_S128x8192_1_0) (ix2 I J))))) = _
  rw [dotGeneral_ix2 dot_S8192x128_S128x8192_S8192x8192_1_0_0_1_n_n rfl rfl rfl rfl rfl rfl, ofBits_one]
  have hs : (∑ j : Fin 128, mu (ix2 I j) * transpose S128x8192 [1, 0] mu transposes_S8192x128_S128x8192_1_0 (ix2 j J))
      = ∑ k : Fin 128, mu (ix2 I k) * mu (ix2 J k) :=
    Finset.sum_congr rfl fun k _ => by rw [transpose_ix2]
  rw [hs]
  exact host_logistic _

/-- The reference's decoder is `sigmoid (mu · muᵀ)`. -/
theorem adjT_eq_G (mu : FVec Ideal S8192x128 .f32) : Cert.ReferenceIdeal.Net.adjT mu = Cert.Adj.G mu := by
  funext i
  obtain ⟨I, J, rfl⟩ : ∃ (I J : Fin 8192), i = ix2 I J := ⟨i 0, i 1, eq_ix2 i⟩
  rw [Cert.Adj.G_apply]
  exact adjT_apply mu I J

/-- info: 'Cert.ReferenceIdeal.NetAdj.adjT_eq_G' depends on axioms: [propext, Classical.choice, Quot.sound] -/
#guard_msgs in #print axioms adjT_eq_G

end Cert.ReferenceIdeal.NetAdj

end
-- ==== Proof.KernelNet.lean ====
/-
  What the kernel's host program computes before its one region, stage by stage, on the extended reals.

  The 83 host operations are read in two stages:
  * the first 25 build the edge lists with their self-loops (`rows`, `cols`) and the scale `dis` of the nodes;
  * the other 58 are the two graph-convolution layers — each scales the features by `dis`, gathers them along the
    edges, sums per target node and scales the sums by `dis` again —, the rectifier between them, the two linear heads
    `mu` and `logvar`, and `mu` once more in the narrower float format the region reads.
-/
import proofs.«174791_j9740985827608_2_alg».proof.Proof.FrameKernelIdeal
import proofs.«174791_j9740985827608_2_alg».proof.Proof.LibReadThrough
import proofs.«174791_j9740985827608_2_alg».proof.Proof.LibFoldStages
import proofs.«174791_j9740985827608_2_alg».proof.Proof.LibGcnLayer
import Idealize.ShloMosaic.PureOps.Ideal

set_option maxRecDepth 16384

noncomputable section

namespace Cert.KernelIdeal.Net

open Idealize.ShloMosaic Idealize.ShloMosaic.TcCoe Idealize.SL.Sem Idealize.ShloMosaic.StableHlo
open Idealize.ShloMosaic.ValueIdx
open Cert.KernelIdeal Cert.KernelIdeal.Facts₀

/-! ## The pieces -/

/-- A row number as jnp indexes with it: a negative one has 8192 added. -/
def wrapIdx (r : IVec S278528 32) : IVec S278528 32 :=
  select (cmpi .slt r (broadcastInDim S278528 ![] bcast_S_S278528 (constantI S_ 32 0#32)))
    (addi r (broadcastInDim S278528 ![] bcast_S_S278528 (constantI S_ 32 8192#32))) r

/-- A bias vector added to every row. -/
def bias256 (b : FVec Ideal S256 .f32) : FVec Ideal S8192x256 .f32 :=
  broadcastInDim S8192x256 ![0, 1] bcast_S1x256_S8192x256_0_1 (broadcastInDim S1x256 ![1] bcast_S256_S1x256_1 b)
def bias128 (b : FVec Ideal S128 .f32) : FVec Ideal S8192x128 .f32 :=
  broadcastInDim S8192x128 ![0, 1] bcast_S1x128_S8192x128_0_1 (broadcastInDim S1x128 ![1] bcast_S128_S1x128_1 b)

/-- The first layer: `x · W1`, scaled, aggregated, scaled again, plus the bias. -/
def layer1 (x : FVec Ideal S8192x512 .f32) (W1 : FVec Ideal S512x256 .f32) (b1 : FVec Ideal S256 .f32)
    (dis : FVec Ideal S8192 .f32) (r c : IVec S278528 32) : FVec Ideal S8192x256 .f32 :=
  addf (Gcn.scaleFirst 8192 256 278528 gather_S8192x256_S278528x1_S278528x256_1_0_n_n_0_1_1256_wf
      scatter_S8192x256_S278528x1_S278528x256_1_0_0_1_wf bcast_S8192_S8192x1_0 bcast_S8192x1_S8192x256_0_1
      bcast_S278528_S278528x1_0
      (broadcastInDim S8192x256 ![] bcast_S_S8192x256 (constant S_ .f32 0x00000000#32))
      (Host.dotGeneral dot_S8192x512_S512x256_S8192x256_1_0_0_1_n_n none x W1) dis (wrapIdx r) c)
    (bias256 b1)

/-- The rectifier. -/
def relu (z : FVec Ideal S8192x256 .f32) : FVec Ideal S8192x256 .f32 :=
  maximumf z (broadcastInDim S8192x256 ![] bcast_S_S8192x256 (constant S_ .f32 0x00000000#32))

/-- The second layer: `z · W2`, scaled, aggregated, scaled again, plus the bias. -/
def layer2 (z : FVec Ideal S8192x256 .f32) (W2 : FVec Ideal S256x128 .f32) (b2 : FVec Ideal S128 .f32)
    (dis : FVec Ideal S8192 .f32) (r c : IVec S278528 32) : FVec Ideal S8192x128 .f32 :=
  addf (Gcn.scaleFirst 8192 128 278528 gather_S8192x128_S278528x1_S278528x128_1_0_n_n_0_1_1128_wf
      scatter_S8192x128_S278528x1_S278528x128_1_0_0_1_wf bcast_S8192_S8192x1_0 bcast_S8192x1_S8192x128_0_1
      bcast_S278528_S278528x1_0
      (broadcastInDim S8192x128 ![] bcast_S_S8192x128 (constant S_ .f32 0x00000000#32))
      (Host.dotGeneral dot_S8192x256_S256x128_S8192x128_1_0_0_1_n_n none z W2) dis (wrapIdx r) c)
    (bias128 b2)

/-- A linear head: `z · W + b`. -/
def head (z : FVec Ideal S8192x128 .f32) (W : FVec Ideal S128x128 .f32) (b : FVec Ideal S128 .f32) : FVec Ideal S8192x128 .f32 :=
  addf (Host.dotGeneral dot_S8192x128_S128x128_S8192x128_1_0_0_1_n_n none z W) (bias128 b)

/-- Both layers. -/
def encode (x : FVec Ideal S8192x512 .f32) (W1 : FVec Ideal S512x256 .f32) (b1 : FVec Ideal S256 .f32)
    (W2 : FVec Ideal S256x128 .f32) (b2 : FVec Ideal S128 .f32) (dis : FVec Ideal S8192 .f32) (r c : IVec S278528 32) :
    FVec Ideal S8192x128 .f32 :=
  layer2 (relu (layer1 x W1 b1 dis r c)) W2 b2 dis r c

/-! ## The stages -/

/-- The edge lists and the scale. -/
abbrev opsA : List (HloOp τ sig (Elt Ideal)) := Gen.hostOps0 (F := Ideal) ++ Gen.hostOps0_1
/-- The layers and the heads. -/
abbrev opsB : List (HloOp τ sig (Elt Ideal)) := Gen.hostOps0_2 (F := Ideal) ++ (Gen.hostOps0_3 ++ Gen.hostOps0_4)

theorem after_host (V : Valuation τ sig (Elt Ideal)) :
    after (List.flatten [Gen.hostOps0 (F := Ideal), Gen.hostOps0_1, Gen.hostOps0_2, Gen.hostOps0_3, Gen.hostOps0_4]) V = after opsB (after opsA V) := by
  rw [← FoldStages.after_append]
  simp only [List.flatten_cons, List.flatten_nil, List.append_nil, List.append_assoc]

section A
variable (V : Valuation τ sig (Elt Ideal))

/-! No operation of the first stage writes an argument. -/
theorem A_arg0 : after opsA V (Proc.devRef .tc main_arg0) = V (Proc.devRef .tc main_arg0) := by
  simp only [opsA, Gen.hostOps0, Gen.hostOps0_1, List.cons_append, List.nil_append]
  after_results_through
theorem A_arg2 : after opsA V (Proc.devRef .tc main_arg2) = V (Proc.devRef .tc main_arg2) := by
  simp only [opsA, Gen.hostOps0, Gen.hostOps0_1, List.cons_append, List.nil_append]
  after_results_through
theorem A_arg3 : after opsA V (Proc.devRef .tc main_arg3) = V (Proc.devRef .tc main_arg3) := by
  simp only [opsA, Gen.hostOps0, Gen.hostOps0_1, List.cons_append, List.nil_append]
  after_results_through
theorem A_arg4 : after opsA V (Proc.devRef .tc main_arg4) = V (Proc.devRef .tc main_arg4) := by
  simp only [opsA, Gen.hostOps0, Gen.hostOps0_1, List.cons_append, List.nil_append]
  after_results_through
theorem A_arg5 : after opsA V (Proc.devRef .tc main_arg5) = V (Proc.devRef .tc main_arg5) := by
  simp only [opsA, Gen.hostOps0, Gen.hostOps0_1, List.cons_append, List.nil_append]
  after_results_through
theorem A_arg6 : after opsA V (Proc.devRef .tc main_arg6) = V (Proc.devRef .tc main_arg6) := by
  simp only [opsA, Gen.hostOps0, Gen.hostOps0_1, List.cons_append, List.nil_append]
  after_results_through
theorem A_arg7 : after opsA V (Proc.devRef .tc main_arg7) = V (Proc.devRef .tc main_arg7) := by
  simp only [opsA, Gen.hostOps0, Gen.hostOps0_1, List.cons_append, List.nil_append]
  after_results_through
theorem A_arg8 : after opsA V (Proc.devRef .tc main_arg8) = V (Proc.devRef .tc main_arg8) := by
  simp only [opsA, Gen.hostOps0, Gen.hostOps0_1, List.cons_append, List.nil_append]
  after_results_through
theorem A_arg9 : after opsA V (Proc.devRef .tc main_arg9) = V (Proc.devRef .tc main_arg9) := by
  simp only [opsA, Gen.hostOps0, Gen.hostOps0_1, List.cons_append, List.nil_append]
  after_results_through

end A

section B
variable (V : Valuation τ sig (Elt Ideal))

set_option maxHeartbeats 4000000 in
theorem B_mu : after opsB V (Proc.devRef .tc main_v62)
    = head (encode (V (Proc.devRef .tc main_arg0)) (V (Proc.devRef .tc main_arg2)) (V (Proc.devRef .tc main_arg3))
        (V (Proc.devRef .tc main_arg4)) (V (Proc.devRef .tc main_arg5)) (V (Proc.devRef .tc main_v17))
        (V (Proc.devRef .tc main_v7)) (V (Proc.devRef .tc main_v8)))
      (V (Proc.devRef .tc main_arg6)) (V (Proc.devRef .tc main_arg7)) := by
  simp only [opsB, Gen.hostOps0_2, Gen.hostOps0_3, Gen.hostOps0_4, List.cons_append, List.nil_append]
  after_results_through
  rfl

set_option maxHeartbeats 4000000 in
theorem B_lv : after opsB V (Proc.devRef .tc main_v66)
    = head (encode (V (Proc.devRef .tc main_arg0)) (V (Proc.devRef .tc main_arg2)) (V (Proc.devRef .tc main_arg3))
        (V (Proc.devRef .tc main_arg4)) (V (Proc.devRef .tc main_arg5)) (V (Proc.devRef .tc main_v17))
        (V (Proc.devRef .tc main_v7)) (V (Proc.devRef .tc main_v8)))
      (V (Proc.devRef .tc main_arg8)) (V (Proc.devRef .tc main_arg9)) := by
  simp only [opsB, Gen.hostOps0_2, Gen.hostOps0_3, Gen.hostOps0_4, List.cons_append, List.nil_append]
  after_results_through
  rfl

set_option maxHeartbeats 4000000 in
/-- What the region reads is `mu` in the narrower format: on the extended reals, `mu` itself. -/
theorem B_bf : @Eq (FVec Ideal S8192x128 .bf16) (after opsB V (Proc.devRef .tc main_v67))
    (truncf .bf16 (after opsB V (Proc.devRef .tc main_v62) : FVec Ideal S8192x128 .f32) bitsLt_bf16_f32) := by
  simp only [opsB, Gen.hostOps0_2, Gen.hostOps0_3, Gen.hostOps0_4, List.cons_append, List.nil_append]
  after_results_through

end B

/-! ## The host prefix as a whole -/

section All
variable (V : Valuation τ sig (Elt Ideal))

/-- All 83 host operations, in order. -/
abbrev hostAll : List (HloOp τ sig (Elt Ideal)) :=
  List.flatten [Gen.hostOps0 (F := Ideal), Gen.hostOps0_1, Gen.hostOps0_2, Gen.hostOps0_3, Gen.hostOps0_4]

theorem K_mu : after hostAll V (Proc.devRef .tc main_v62)
    = head (encode (V (Proc.devRef .tc main_arg0)) (V (Proc.devRef .tc main_arg2)) (V (Proc.devRef .tc main_arg3))
        (V (Proc.devRef .tc main_arg4)) (V (Proc.devRef .tc main_arg5)) (after opsA V (Proc.devRef .tc main_v17))
        (after opsA V (Proc.devRef .tc main_v7)) (after opsA V (Proc.devRef .tc main_v8)))
      (V (Proc.devRef .tc main_arg6)) (V (Proc.devRef .tc main_arg7)) := by
  rw [after_host, B_mu, A_arg0, A_arg2, A_arg3, A_arg4, A_arg5, A_arg6, A_arg7]

theorem K_lv : after hostAll V (Proc.devRef .tc main_v66)
    = head (encode (V (Proc.devRef .tc main_arg0)) (V (Proc.devRef .tc main_arg2)) (V (Proc.devRef .tc main_arg3))
        (V (Proc.devRef .tc main_arg4)) (V (Proc.devRef .tc main_arg5)) (after opsA V (Proc.devRef .tc main_v17))
        (after opsA V (Proc.devRef .tc main_v7)) (after opsA V (Proc.devRef .tc main_v8)))
      (V (Proc.devRef .tc main_arg8)) (V (Proc.devRef .tc main_arg9)) := by
  rw [after_host, B_lv, A_arg0, A_arg2, A_arg3, A_arg4, A_arg5, A_arg8, A_arg9]

/-- The array the region reads through both input windows is `mu` (a change of float format is the identity on the
    extended reals). -/
theorem K_bf : @Eq (FVec Ideal S8192x128 .bf16) (after hostAll V (Proc.devRef .tc main_v67))
    (truncf .bf16 (after hostAll V (Proc.devRef .tc main_v62) : FVec Ideal S8192x128 .f32) bitsLt_bf16_f32) := by
  rw [after_host]
  exact B_bf (after opsA V)

end All

end Cert.KernelIdeal.Net

end
-- ==== Proof.Bridge.lean ====
/-
  The kernel's host program and the reference compute the same `mu` and `logvar` on the extended reals.

  * The edge lists with their self-loops and the nodes' scale are built by the same operations from the same edge
    array in both programs (and twice in the reference, from the same data).
  * Each graph-convolution layer is "scale, gather, sum per target, scale" in the kernel and "gather, weigh by the
    product of the ends' scales, sum per target" in the reference: one function, because the scale is a nonnegative
    real at every node (it may be moved across the sum) and an edge that lands on a node has that node as its
    wrapped, clamped target.
  * Everything between — the matrix products, the biases, the rectifier, the two heads — is the same operation on
    both sides.
-/
import proofs.«174791_j9740985827608_2_alg».proof.Proof.KernelNet
import proofs.«174791_j9740985827608_2_alg».proof.Proof.RefNet

set_option maxRecDepth 16384

noncomputable section

namespace Cert.Bridge

open Idealize.ShloMosaic Idealize.ShloMosaic.TcCoe Idealize.SL.Sem Idealize.ShloMosaic.StableHlo
open Idealize.ShloMosaic.ValueIdx

/-! ## One layer -/

section Layers
variable (dis : FVec Ideal ⟨1, ![8192]⟩ .f32) (r c : IVec ⟨1, ![278528]⟩ 32) (hdis : Gcn.NonnegReal dis)
include hdis

theorem layer1_eq (x : FVec Ideal ⟨2, ![8192, 512]⟩ .f32) (W1 : FVec Ideal ⟨2, ![512, 256]⟩ .f32)
    (b1 : FVec Ideal ⟨1, ![256]⟩ .f32) :
    Cert.KernelIdeal.Net.layer1 x W1 b1 dis r c = Cert.ReferenceIdeal.Net.layer1 x W1 b1 dis r c := by
  unfold Cert.KernelIdeal.Net.layer1 Cert.ReferenceIdeal.Net.layer1
  rw [Gcn.scaleFirst_eq_weighEdges 8192 256 278528 (by norm_num) _ _
    Cert.ReferenceIdeal.Facts₀.gather_S8192_S278528x1_S278528_n_0_n_n_0_1_1_wf _ _ _
    Cert.ReferenceIdeal.Facts₀.bcast_S278528x1_S278528x256_0_1 8192#32
    (broadcastInDim Cert.KernelIdeal.S8192x256 ![] Cert.KernelIdeal.Facts₀.bcast_S_S8192x256 (constant Cert.KernelIdeal.S_ .f32 0x00000000#32))
    (broadcastInDim Cert.ReferenceIdeal.S8192x256 ![] Cert.ReferenceIdeal.Facts₀.bcast_S_S8192x256 (constant Cert.ReferenceIdeal.S_ .f32 0x00000000#32))
    _ dis _ (Cert.ReferenceIdeal.Net.wrapIdx c) c (fun _ => DisScale.ofBits_zero) (fun _ => DisScale.ofBits_zero) hdis
    (fun _ => rfl)]
  rfl

theorem layer2_eq (z : FVec Ideal ⟨2, ![8192, 256]⟩ .f32) (W2 : FVec Ideal ⟨2, ![256, 128]⟩ .f32)
    (b2 : FVec Ideal ⟨1, ![128]⟩ .f32) :
    Cert.KernelIdeal.Net.layer2 z W2 b2 dis r c = Cert.ReferenceIdeal.Net.layer2 z W2 b2 dis r c := by
  unfold Cert.KernelIdeal.Net.layer2 Cert.ReferenceIdeal.Net.layer2
  rw [Gcn.scaleFirst_eq_weighEdges 8192 128 278528 (by norm_num) _ _
    Cert.ReferenceIdeal.Facts₀.gather_S8192_S278528x1_S278528_n_0_n_n_0_1_1_wf _ _ _
    Cert.ReferenceIdeal.Facts₀.bcast_S278528x1_S278528x128_0_1 8192#32
    (broadcastInDim Cert.KernelIdeal.S8192x128 ![] Cert.KernelIdeal.Facts₀.bcast_S_S8192x128 (constant Cert.KernelIdeal.S_ .f32 0x00000000#32))
    (broadcastInDim Cert.ReferenceIdeal.S8192x128 ![] Cert.ReferenceIdeal.Facts₀.bcast_S_S8192x128 (constant Cert.ReferenceIdeal.S_ .f32 0x00000000#32))
    _ dis _ (Cert.ReferenceIdeal.Net.wrapIdx c) c (fun _ => DisScale.ofBits_zero) (fun _ => DisScale.ofBits_zero) hdis
    (fun _ => rfl)]
  rfl

/-- Both layers, the rectifier between them. -/
theorem encode_eq (x : FVec Ideal ⟨2, ![8192, 512]⟩ .f32) (W1 : FVec Ideal ⟨2, ![512, 256]⟩ .f32)
    (b1 : FVec Ideal ⟨1, ![256]⟩ .f32) (W2 : FVec Ideal ⟨2, ![256, 128]⟩ .f32) (b2 : FVec Ideal ⟨1, ![128]⟩ .f32) :
    Cert.KernelIdeal.Net.encode x W1 b1 W2 b2 dis r c = Cert.ReferenceIdeal.Net.encode x W1 b1 W2 b2 dis r c := by
  unfold Cert.KernelIdeal.Net.encode Cert.ReferenceIdeal.Net.encode
  rw [layer2_eq dis r c hdis, layer1_eq dis r c hdis]
  rfl

end Layers

/-! ## The edge lists and the scale -/

section Stage
variable (V : Valuation Cert.KernelIdeal.τ Cert.KernelIdeal.sig (Elt Ideal))
  (V' : Valuation Cert.ReferenceIdeal.τ Cert.ReferenceIdeal.sig (Elt Ideal))
  (h1 : V' (Proc.devRef .tc Cert.ReferenceIdeal.main_arg1) = V (Proc.devRef .tc Cert.KernelIdeal.main_arg1))
include h1

theorem rows_eq : after Cert.KernelIdeal.Net.opsA V (Proc.devRef .tc Cert.KernelIdeal.main_v7)
    = after Cert.ReferenceIdeal.Net.opsA V' (Proc.devRef .tc Cert.ReferenceIdeal.main_v8) := by
  simp only [Cert.KernelIdeal.Net.opsA, Cert.KernelIdeal.Gen.hostOps0, Cert.KernelIdeal.Gen.hostOps0_1, List.cons_append,
    List.nil_append, Cert.ReferenceIdeal.Net.opsA, Cert.ReferenceIdeal.RunP.ops, List.take_succ_cons, List.take_zero]
  after_results_through
  rw [h1]
  rfl

theorem cols_eq : after Cert.KernelIdeal.Net.opsA V (Proc.devRef .tc Cert.KernelIdeal.main_v8)
    = after Cert.ReferenceIdeal.Net.opsA V' (Proc.devRef .tc Cert.ReferenceIdeal.main_v9) := by
  simp only [Cert.KernelIdeal.Net.opsA, Cert.KernelIdeal.Gen.hostOps0, Cert.KernelIdeal.Gen.hostOps0_1, List.cons_append,
    List.nil_append, Cert.ReferenceIdeal.Net.opsA, Cert.ReferenceIdeal.RunP.ops, List.take_succ_cons, List.take_zero]
  after_results_through
  rw [h1]
  rfl

theorem dis_eq : after Cert.KernelIdeal.Net.opsA V (Proc.devRef .tc Cert.KernelIdeal.main_v17)
    = after Cert.ReferenceIdeal.Net.opsA V' (Proc.devRef .tc Cert.ReferenceIdeal.main_v18) := by
  simp only [Cert.KernelIdeal.Net.opsA, Cert.KernelIdeal.Gen.hostOps0, Cert.KernelIdeal.Gen.hostOps0_1, List.cons_append,
    List.nil_append, Cert.ReferenceIdeal.Net.opsA, Cert.ReferenceIdeal.RunP.ops, List.take_succ_cons, List.take_zero]
  after_results_through
  simp only [TRef.toBuf, TRef.ofBuf, cast_eq]
  rw [h1]
  rfl

end Stage

/-! ## The results -/

section Results
variable (V : Valuation Cert.KernelIdeal.τ Cert.KernelIdeal.sig (Elt Ideal))
  (V' : Valuation Cert.ReferenceIdeal.τ Cert.ReferenceIdeal.sig (Elt Ideal))
  (h0 : V' (Proc.devRef .tc Cert.ReferenceIdeal.main_arg0) = V (Proc.devRef .tc Cert.KernelIdeal.main_arg0))
  (h1 : V' (Proc.devRef .tc Cert.ReferenceIdeal.main_arg1) = V (Proc.devRef .tc Cert.KernelIdeal.main_arg1))
  (h2 : V' (Proc.devRef .tc Cert.ReferenceIdeal.main_arg2) = V (Proc.devRef .tc Cert.KernelIdeal.main_arg2))
  (h3 : V' (Proc.devRef .tc Cert.ReferenceIdeal.main_arg3) = V (Proc.devRef .tc Cert.KernelIdeal.main_arg3))
  (h4 : V' (Proc.devRef .tc Cert.ReferenceIdeal.main_arg4) = V (Proc.devRef .tc Cert.KernelIdeal.main_arg4))
  (h5 : V' (Proc.devRef .tc Cert.ReferenceIdeal.main_arg5) = V (Proc.devRef .tc Cert.KernelIdeal.main_arg5))

include h0 h1 h2 h3 h4 h5 in
/-- The reference's `mu` is the kernel's. -/
theorem mu_eq
    (h6 : V' (Proc.devRef .tc Cert.ReferenceIdeal.main_arg6) = V (Proc.devRef .tc Cert.KernelIdeal.main_arg6))
    (h7 : V' (Proc.devRef .tc Cert.ReferenceIdeal.main_arg7) = V (Proc.devRef .tc Cert.KernelIdeal.main_arg7)) :
    after (Cert.ReferenceIdeal.RunP.ops (F := Ideal)) V' (Proc.devRef .tc Cert.ReferenceIdeal.main_v99)
      = after Cert.KernelIdeal.Net.hostAll V (Proc.devRef .tc Cert.KernelIdeal.main_v62) := by
  rw [Cert.ReferenceIdeal.Net.R_mu, Cert.KernelIdeal.Net.K_mu, h0, h2, h3, h4, h5, h6, h7,
    rows_eq V V' h1, cols_eq V V' h1, (dis_eq V V' h1).trans (Cert.ReferenceIdeal.Net.A_dis V'),
    encode_eq _ _ _ (Cert.ReferenceIdeal.Net.nonneg_disT _)]
  rfl

include h0 h1 h2 h3 h4 h5 in
/-- The reference's `logvar` is the kernel's. -/
theorem lv_eq
    (h8 : V' (Proc.devRef .tc Cert.ReferenceIdeal.main_arg8) = V (Proc.devRef .tc Cert.KernelIdeal.main_arg8))
    (h9 : V' (Proc.devRef .tc Cert.ReferenceIdeal.main_arg9) = V (Proc.devRef .tc Cert.KernelIdeal.main_arg9)) :
    after (Cert.ReferenceIdeal.RunP.ops (F := Ideal)) V' (Proc.devRef .tc Cert.ReferenceIdeal.main_v103)
      = after Cert.KernelIdeal.Net.hostAll V (Proc.devRef .tc Cert.KernelIdeal.main_v66) := by
  rw [Cert.ReferenceIdeal.Net.R_lv, Cert.KernelIdeal.Net.K_lv, h0, h2, h3, h4, h5, h8, h9,
    rows_eq V V' h1, cols_eq V V' h1, (dis_eq V V' h1).trans (Cert.ReferenceIdeal.Net.A_dis V'),
    encode_eq _ _ _ (Cert.ReferenceIdeal.Net.nonneg_disT _)]
  rfl

end Results

end Cert.Bridge

end
-- ==== Proof.lean ====
/-
  `Cert.Claim` for a graph variational auto-encoder: two graph-convolution layers over an edge list with self-loops,
  two linear heads `mu` and `logvar`, and the decoder `adj = sigmoid (mu · muᵀ)`.

  The kernel keeps the convolutions on the host — each layer scales the features by the nodes' scale
  `dis = deg^(−1/2)`, gathers along the edges, sums per target node and scales again — and computes the decoder in one
  pipelined region over a 4 × 8 grid, reading `mu` through two windows (row blocks of 2048 and of 1024) and writing
  2048 × 1024 blocks of `adj`.  The reference weighs every gathered row by `dis (source) · dis (target)` before
  summing, and spells the decoder as negate, exponential, add, divide over a transposed product.

  On the extended reals the two agree for every input, finite or not, and every edge array:
  * the two layer forms are one function because `dis` is a nonnegative real at every node, so it moves across the
    per-target sum, and an edge summed at node `n` has `n` as its wrapped and clamped target (Proof/LibGcnLayer.lean,
    Proof/LibDisScale.lean; the two programs read stage by stage in Proof/KernelNet.lean and Proof/RefNet.lean and joined
    in Proof/Bridge.lean);
  * the region's blocks are the restrictions of `sigmoid (mu · muᵀ)` (Proof/KernelValue.lean), which is also what the
    reference's quotient is (Proof/RefAdj.lean); the narrower float format `mu` is handed over in is the identity here.
  The frames: both kernel programs run their host operations and the region to the end and leave the arguments alone
  (Proof/FrameKernel.lean, Proof/FrameKernelIdeal.lean: the one array behind both input windows is held at two half
  shares); the reference is a straight line of host operations (Proof/RefRun.lean, Proof/RefArgs.lean).  The ideal pass
  rewrote nothing, so `preserves` is `True`.
-/
import proofs.«174791_j9740985827608_2_alg».proof.Defs
import proofs.«174791_j9740985827608_2_alg».proof.Proof.Gen.Kernel
import proofs.«174791_j9740985827608_2_alg».proof.Proof.Gen.KernelIdeal
import proofs.«174791_j9740985827608_2_alg».proof.Proof.Gen.ReferenceIdeal
import proofs.«174791_j9740985827608_2_alg».proof.Proof.Gen.Pre_finite_inputs
import proofs.«174791_j9740985827608_2_alg».proof.Proof.FrameKernel
import proofs.«174791_j9740985827608_2_alg».proof.Proof.FrameKernelIdeal
import proofs.«174791_j9740985827608_2_alg».proof.Proof.KernelValue
import proofs.«174791_j9740985827608_2_alg».proof.Proof.RefRun
import proofs.«174791_j9740985827608_2_alg».proof.Proof.RefArgs
import proofs.«174791_j9740985827608_2_alg».proof.Proof.RefAdj
import proofs.«174791_j9740985827608_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.StableHlo

theorem frame_k : Cert.frame_Kernel := fun m ρ _ => Cert.Kernel.Hand.frame m ρ

theorem frame_ki : Cert.frame_KernelIdeal := fun m ρ _ => Cert.KernelIdeal.Hand.frame m ρ

/-- The reference: a straight line of host operations, none of which writes an argument. -/
theorem frame_ri : Cert.frame_ReferenceIdeal := fun m ρ _ =>
  (θ_run Cert.ReferenceIdeal.defs _ _).mono (fun _ h c =>
    ⟨(h c Cert.ReferenceIdeal.main_arg0).trans (Cert.ReferenceIdeal.NetArgs.R_arg0 _),
     (h c Cert.ReferenceIdeal.main_arg1).trans (Cert.ReferenceIdeal.NetArgs.R_arg1 _),
     (h c Cert.ReferenceIdeal.main_arg2).trans (Cert.ReferenceIdeal.NetArgs.R_arg2 _),
     (h c Cert.ReferenceIdeal.main_arg3).trans (Cert.ReferenceIdeal.NetArgs.R_arg3 _),
     (h c Cert.ReferenceIdeal.main_arg4).trans (Cert.ReferenceIdeal.NetArgs.R_arg4 _),
     (h c Cert.ReferenceIdeal.main_arg5).trans (Cert.ReferenceIdeal.NetArgs.R_arg5 _),
     (h c Cert.ReferenceIdeal.main_arg6).trans (Cert.ReferenceIdeal.NetArgs.R_arg6 _),
     (h c Cert.ReferenceIdeal.main_arg7).trans (Cert.ReferenceIdeal.NetArgs.R_arg7 _),
     (h c Cert.ReferenceIdeal.main_arg8).trans (Cert.ReferenceIdeal.NetArgs.R_arg8 _),
     (h c Cert.ReferenceIdeal.main_arg9).trans (Cert.ReferenceIdeal.NetArgs.R_arg9 _)⟩)
    (Cert.ReferenceIdeal.RunP.run_fold (F := Ideal) m ρ)

theorem preserves : Cert.preserves_Kernel_KernelIdeal := trivial

/-- The reference's decoder output is `sigmoid (mu · muᵀ)` of the array the kernel's region reads. -/
theorem adj_eq (V : Valuation Cert.KernelIdeal.τ Cert.KernelIdeal.sig (Elt Ideal))
    (V' : Valuation Cert.ReferenceIdeal.τ Cert.ReferenceIdeal.sig (Elt Ideal))
    (hmu : after (Cert.ReferenceIdeal.RunP.ops (F := Ideal)) V' (Proc.devRef .tc Cert.ReferenceIdeal.main_v99)
      = after Cert.KernelIdeal.Net.hostAll V (Proc.devRef .tc Cert.KernelIdeal.main_v62)) :
    after (Cert.ReferenceIdeal.RunP.ops (F := Ideal)) V' (Proc.devRef .tc Cert.ReferenceIdeal.main_v111)
      = Cert.Adj.G (after Cert.KernelIdeal.Net.hostAll V (Proc.devRef .tc Cert.KernelIdeal.main_v67)) := by
  rw [Cert.ReferenceIdeal.Net.R_adj, Cert.ReferenceIdeal.NetAdj.adjT_eq_G, hmu, Cert.KernelIdeal.Net.K_bf V]
  rfl

/-- From memories agreeing on the arguments both programs end with `adj`, `mu`, `logvar` equal entry by entry. -/
theorem algebraic : Cert.algebraic_KernelIdeal_ReferenceIdeal := by
  intro m ρ m' ρ' _ hagree
  refine ⟨fun c => Cert.Adj.G (Cert.KernelIdeal.Hand.V m c Cert.KernelIdeal.main_v67),
    fun c => Cert.KernelIdeal.Hand.V m c Cert.KernelIdeal.main_v62,
    fun c => Cert.KernelIdeal.Hand.V m c Cert.KernelIdeal.main_v66,
    Cert.KernelIdeal.Hand.Value.run_value m ρ, ?_⟩
  refine (θ_run Cert.ReferenceIdeal.defs _ _).mono (fun r h c => ?_) (Cert.ReferenceIdeal.RunP.run_fold (F := Ideal) m' ρ')
  obtain ⟨h0, h1, h2, h3, h4, h5, h6, h7, h8, h9⟩ := hagree c
  have hmu := Cert.Bridge.mu_eq (fun b => m (c, b)) (launchContents m' c) h0 h1 h2 h3 h4 h5 h6 h7
  exact ⟨(h c Cert.ReferenceIdeal.main_v111).trans (adj_eq _ _ hmu),
    (h c Cert.ReferenceIdeal.main_v99).trans hmu,
    (h c Cert.ReferenceIdeal.main_v103).trans (Cert.Bridge.lv_eq (fun b => m (c, b)) (launchContents m' c) h0 h1 h2 h3 h4 h5 h8 h9),
    (h c Cert.ReferenceIdeal.main_arg0).trans (Cert.ReferenceIdeal.NetArgs.R_arg0 _),
    (h c Cert.ReferenceIdeal.main_arg1).trans (Cert.ReferenceIdeal.NetArgs.R_arg1 _),
    (h c Cert.ReferenceIdeal.main_arg2).trans (Cert.ReferenceIdeal.NetArgs.R_arg2 _),
    (h c Cert.ReferenceIdeal.main_arg3).trans (Cert.ReferenceIdeal.NetArgs.R_arg3 _),
    (h c Cert.ReferenceIdeal.main_arg4).trans (Cert.ReferenceIdeal.NetArgs.R_arg4 _),
    (h c Cert.ReferenceIdeal.main_arg5).trans (Cert.ReferenceIdeal.NetArgs.R_arg5 _),
    (h c Cert.ReferenceIdeal.main_arg6).trans (Cert.ReferenceIdeal.NetArgs.R_arg6 _),
    (h c Cert.ReferenceIdeal.main_arg7).trans (Cert.ReferenceIdeal.NetArgs.R_arg7 _),
    (h c Cert.ReferenceIdeal.main_arg8).trans (Cert.ReferenceIdeal.NetArgs.R_arg8 _),
    (h c Cert.ReferenceIdeal.main_arg9).trans (Cert.ReferenceIdeal.NetArgs.R_arg9 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
